-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S4x2048x16x64 : Shape := ⟨4, ![4, 2048, 16, 64]⟩
abbrev S4x16x2048x64 : Shape := ⟨4, ![4, 16, 2048, 64]⟩
abbrev S64x2048x64 : Shape := ⟨3, ![64, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 40
  | .vmem => 28
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8192x1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S8192x1024, .bf16⟩
  | .hbm, ⟨22, _⟩ => ⟨S8192x1024, .bf16⟩
  | .hbm, ⟨23, _⟩ => ⟨S8192x1024, .bf16⟩
  | .hbm, ⟨24, _⟩ => ⟨S4x2048x16x64, .bf16⟩
  | .hbm, ⟨25, _⟩ => ⟨S4x16x2048x64, .bf16⟩
  | .hbm, ⟨26, _⟩ => ⟨S64x2048x64, .bf16⟩
  | .hbm, ⟨27, _⟩ => ⟨S4x2048x16x64, .bf16⟩
  | .hbm, ⟨28, _⟩ => ⟨S4x16x2048x64, .bf16⟩
  | .hbm, ⟨29, _⟩ => ⟨S64x2048x64, .bf16⟩
  | .hbm, ⟨30, _⟩ => ⟨S4x2048x16x64, .bf16⟩
  | .hbm, ⟨31, _⟩ => ⟨S4x16x2048x64, .bf16⟩
  | .hbm, ⟨32, _⟩ => ⟨S64x2048x64, .bf16⟩
  | .hbm, ⟨33, _⟩ => ⟨S64x2048x64, .bf16⟩
  | .hbm, ⟨34, _⟩ => ⟨S4x16x2048x64, .bf16⟩
  | .hbm, ⟨35, _⟩ => ⟨S4x2048x16x64, .bf16⟩
  | .hbm, ⟨36, _⟩ => ⟨S8192x1024, .bf16⟩
  | .hbm, ⟨37, _⟩ => ⟨S1x1024, .f32⟩
  | .hbm, ⟨38, _⟩ => ⟨S8192x1024, .f32⟩
  | .hbm, ⟨39, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x512x64, .bf16⟩
  | .local _ .vmem, ⟨15, _⟩ => ⟨S1x512x64, .bf16⟩
  | .local _ .vmem, ⟨16, _⟩ => ⟨S1x2048x64, .bf16⟩
  | .local _ .vmem, ⟨17, _⟩ => ⟨S1x2048x64, .bf16⟩
  | .local _ .vmem, ⟨18, _⟩ => ⟨S1x2048x64, .bf16⟩
  | .local _ .vmem, ⟨19, _⟩ => ⟨S1x2048x64, .bf16⟩
  | .local _ .vmem, ⟨20, _⟩ => ⟨S1x512x64, .bf16⟩
  | .local _ .vmem, ⟨21, _⟩ => ⟨S1x512x64, .bf16⟩
  | .local _ .vmem, ⟨22, _⟩ => ⟨S512x1024, .bf16⟩
  | .local _ .vmem, ⟨23, _⟩ => ⟨S512x1024, .bf16⟩
  | .local _ .vmem, ⟨24, _⟩ => ⟨S1024x1024, .bf16⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![64, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x1024_S8192x1024 : S4x2048x1024.ShapeCasts S8192x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S4x2048x16x64 : S8192x1024.ShapeCasts S4x2048x16x64
  transposes_S4x2048x16x64_S4x16x2048x64_0_2_1_3 : S4x2048x16x64.Transposes [0, 2, 1, 3] S4x16x2048x64
  shapeCasts_S4x16x2048x64_S64x2048x64 : S4x16x2048x64.ShapeCasts S64x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  shapeCasts_S64x2048x64_S4x16x2048x64 : S64x2048x64.ShapeCasts S4x16x2048x64
  transposes_S4x16x2048x64_S4x2048x16x64_0_2_1_3 : S4x16x2048x64.Transposes [0, 2, 1, 3] S4x2048x16x64
  shapeCasts_S4x2048x16x64_S8192x1024 : S4x2048x16x64.ShapeCasts S8192x1024
  shapeCasts_S8192x1024_S4x2048x1024 : S8192x1024.ShapeCasts S4x2048x1024
  dot_S512x1024_S1024x1024_S512x1024_1_0_0_1_n_n_wf : DotDims.WF S512x1024 S1024x1024 S512x1024 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .bf16 = 32 ∨ (Rect.block (s := S8192x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S64x2048x64.size a
  hwx1_0 : ∀ i : grid1.Coords, EltTy.bits .bf16 = 32 ∨ (Rect.block (s := S64x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S64x2048x64.size a
  hwx1_1 : ∀ i : grid1.Coords, EltTy.bits .bf16 = 32 ∨ (Rect.block (s := S64x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S64x2048x64.size a
  hwx1_2 : ∀ i : grid1.Coords, EltTy.bits .bf16 = 32 ∨ (Rect.block (s := S64x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S64x2048x64.size a
  hwx1_3 : ∀ i : grid1.Coords, EltTy.bits .bf16 = 32 ∨ (Rect.block (s := S64x2048x64) S1x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v12_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v15) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v25) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x16x64, .f32⟩
  | .hbm, ⟨14, _⟩ => ⟨S4x16x2048x64, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x16x64, .f32⟩
  | .hbm, ⟨20, _⟩ => ⟨S4x16x2048x64, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x16x64, .f32⟩
  | .hbm, ⟨26, _⟩ => ⟨S4x16x2048x64, .f32⟩
  | .hbm, ⟨27, _⟩ => ⟨S4x16x2048x2048, .f32⟩
  | .hbm, ⟨28, _⟩ => ⟨S_, .f32⟩
  | .hbm, ⟨29, _⟩ => ⟨S_, .f32⟩
  | .hbm, ⟨30, _⟩ => ⟨S4x16x2048x2048, .f32⟩
  | .hbm, ⟨31, _⟩ => ⟨S4x16x2048x2048, .f32⟩
  | .hbm, ⟨32, _⟩ => ⟨S_, .f32⟩
  | .hbm, ⟨33, _⟩ => ⟨S4x16x2048, .f32⟩
  | .hbm, ⟨34, _⟩ => ⟨S_, .f32⟩
  | .hbm, ⟨35, _⟩ => ⟨S4x16x2048, .f32⟩
  | .hbm, ⟨36, _⟩ => ⟨S4x16x2048, .f32⟩
  | .hbm, ⟨37, _⟩ => ⟨S4x16x2048x1, .f32⟩
  | .hbm, ⟨38, _⟩ => ⟨S4x16x2048x2048, .f32⟩
  | .hbm, ⟨39, _⟩ => ⟨S4x16x2048x2048, .f32⟩
  | .hbm, ⟨40, _⟩ => ⟨S4x16x2048x2048, .f32⟩
  | .hbm, ⟨41, _⟩ => ⟨S_, .f32⟩
  | .hbm, ⟨42, _⟩ => ⟨S4x16x2048, .f32⟩
  | .hbm, ⟨43, _⟩ => ⟨S4x16x2048x1, .f32⟩
  | .hbm, ⟨44, _⟩ => ⟨S4x16x2048x2048, .f32⟩
  | .hbm, ⟨45, _⟩ => ⟨S4x16x2048x2048, .f32⟩
  | .hbm, ⟨46, _⟩ => ⟨S4x16x2048x64, .f32⟩
  | .hbm, ⟨47, _⟩ => ⟨S4x2048x16x64, .f32⟩
  | .hbm, ⟨48, _⟩ => ⟨S4x2048x1024, .f32⟩
  | .hbm, ⟨49, _⟩ => ⟨S4x2048x1024, .f32⟩
  | .hbm, ⟨50, _⟩ => ⟨S1x1x1024, .f32⟩
  | .hbm, ⟨51, _⟩ => ⟨S4x2048x1024, .f32⟩
  | .hbm, ⟨52, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KernelRun.lean ====
/-
  The kernel program's run, with the result named.

  The program is seven stretches in a row: host layout operations, the projection of queries, keys and values, host
  regroupings by head, attention, the inverse regrouping, the output projection, and a last reshape. Every weakly fair
  execution walks through them; after the last stretch every buffer that outlives the kernels holds the contents the
  walk computes for it. Read at the arguments this is the frame; read at the result buffer it says what the result is:
  the last stretch applied to what the output projection's write-backs left.
-/
import proofs.«100730_j73830487818494_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, with the result buffer at the contents the walk
    through the seven stretches computes for it and with every argument as launched. -/
theorem run_result : θ_run defs (onTc (τ := τ) (main (F := F))) ⟨m, fun _ => 0, ρ⟩ (fun r => ∀ c : Dev nD,
      r.2.mem ((c.tc : Thread nD τ).loc main_v28) = W7 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v28 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.Hand

end
-- ==== Proof.Spec.lean ====
/-
  Multi-head self-attention on the extended reals, as functions of whole arrays.

  The input `x` is a batch of 4 sequences of 2048 rows of 1024 numbers. A *projection* of the 8192 rows is
  `row · Wᵀ + b` (`lin`, over the rows flattened to `[8192, 1024]`, the weight already transposed and the bias a
  one-row matrix). The 1024 columns of a projection are 16 heads of 64; `heads` regroups `[8192, 1024]` as
  `[64, 2048, 64]` (batch × head, row, column in the head) and `unheads` regroups back. Per (batch, head) and
  query row `q`, the scores against the 2048 key rows are the inner products scaled by 1/8; with `m` their
  maximum and `p k = exp (score k − m)`, the attended row is `(∑ k, p k · V k) / (∑ k, p k)` (`att`): the
  normalizing division is taken ONCE, after the weighted sum. The result is the projection of the regrouped
  attended rows by the output weight, viewed again as `[4, 2048, 1024]` (`mha`).
-/
import Mathlib.Tactic
import Idealize.ShloMosaic.PureOps.Ideal
import Idealize.ShloMosaic.Lib.ValueIdx
import Idealize.ShloMosaic.Lib.Pipeline.Value

noncomputable section

namespace Cert.Mha

open Idealize.ShloMosaic Idealize.ShloMosaic.ValueIdx

/-- The input and the result: 4 sequences of 2048 rows of 1024. -/
abbrev SX : Shape := ⟨3, ![4, 2048, 1024]⟩
/-- All 8192 rows. -/
abbrev SRows : Shape := ⟨2, ![8192, 1024]⟩
/-- A weight matrix. -/
abbrev SW : Shape := ⟨2, ![1024, 1024]⟩
/-- A bias vector, and the same as a one-row matrix. -/
abbrev SVec : Shape := ⟨1, ![1024]⟩
abbrev SRow1 : Shape := ⟨2, ![1, 1024]⟩
/-- Rows with their columns split into 16 heads of 64; the heads moved in front of the rows; batch and head merged. -/
abbrev SSplit : Shape := ⟨4, ![4, 2048, 16, 64]⟩
abbrev SHeads4 : Shape := ⟨4, ![4, 16, 2048, 64]⟩
abbrev SHeads : Shape := ⟨3, ![64, 2048, 64]⟩

/-- Entry `(r, e)` of `X · Wt + b`: the inner product of row `r` of `X` with column `e` of `Wt`, plus `b e`. -/
def linAt (X : SRows.Idx → EReal) (Wt : SW.Idx → EReal) (b : SRow1.Idx → EReal) (r : Fin 8192) (e : Fin 1024) : EReal :=
  (∑ k : Fin 1024, X (ix2 r k) * Wt (ix2 k e)) + b (ix2 (0 : Fin 1) e)

/-- `X · Wt + b` over all rows. -/
def lin (X : SRows.Idx → EReal) (Wt : SW.Idx → EReal) (b : SRow1.Idx → EReal) : SRows.Idx → EReal :=
  fun j => linAt X Wt b (j 0) (j 1)

/-- The scaled score of query row `q` against key row `k` in head `h`: their inner product times 1/8 (the word
    `0x3E000000`). -/
def score (Q K : SHeads.Idx → EReal) (h : Fin 64) (q k : Fin 2048) : EReal :=
  (∑ d : Fin 64, Q (ix3 h q d) * K (ix3 h k d)) * Ideal.ofBits .f32 0x3E000000#32

/-- The largest of 2048 numbers, folded from minus infinity (the word `0xFF800000`). -/
def rowMax (s : Fin 2048 → EReal) : EReal :=
  (Finset.univ : Finset (Fin 2048)).fold max (Ideal.ofBits .f32 0xFF800000#32) s

/-- Column `d` of the attended row `q` of head `h`: the values weighted by the exponentials of the shifted scores,
    divided once by the sum of those exponentials. -/
def attAt (Q K V : SHeads.Idx → EReal) (h : Fin 64) (q : Fin 2048) (d : Fin 64) : EReal :=
  Ideal.div (∑ k : Fin 2048, Ideal.exp (score Q K h q k - rowMax (score Q K h q)) * V (ix3 h k d))
    (∑ k : Fin 2048, Ideal.exp (score Q K h q k - rowMax (score Q K h q)))

/-- Attention of every head. -/
def att (Q K V : SHeads.Idx → EReal) : SHeads.Idx → EReal := fun j => attAt Q K V (j 0) (j 1) (j 2)

/-- Rows regrouped by head: split the columns into 16 heads, move the head axis in front of the rows, merge batch and
    head. -/
def heads (Y : SRows.Idx → EReal) : SHeads.Idx → EReal :=
  shapeCast SHeads (transpose SHeads4 [0, 2, 1, 3] (shapeCast SSplit Y (by decide)) (by decide)) (by decide)

/-- The inverse regrouping: separate batch and head, move the rows back in front of the heads, merge heads and columns. -/
def unheads (O : SHeads.Idx → EReal) : SRows.Idx → EReal :=
  shapeCast SRows (transpose SSplit [0, 2, 1, 3] (shapeCast SHeads4 O (by decide)) (by decide)) (by decide)

/-- A weight transposed. -/
def weightT (W : SW.Idx → EReal) : SW.Idx → EReal := transpose SW [1, 0] W (by decide)

/-- A bias as a one-row matrix. -/
def biasRow (b : SVec.Idx → EReal) : SRow1.Idx → EReal := shapeCast SRow1 b (by decide)

/-- One projection of the input, regrouped by head. -/
def proj (x : SX.Idx → EReal) (W : SW.Idx → EReal) (b : SVec.Idx → EReal) : SHeads.Idx → EReal :=
  heads (lin (shapeCast SRows x (by decide)) (weightT W) (biasRow b))

/-- Multi-head self-attention of `x` with the four weights and biases. -/
def mha (x : SX.Idx → EReal) (Wq : SW.Idx → EReal) (bq : SVec.Idx → EReal) (Wk : SW.Idx → EReal) (bk : SVec.Idx → EReal)
    (Wv : SW.Idx → EReal) (bv : SVec.Idx → EReal) (Wo : SW.Idx → EReal) (bo : SVec.Idx → EReal) : SX.Idx → EReal :=
  shapeCast SX (lin (unheads (att (proj x Wq bq) (proj x Wk bk) (proj x Wv bv))) (weightT Wo) (biasRow bo)) (by decide)

end Cert.Mha

end
-- ==== Proof.KernelHost.lean ====
/-
  The host stretches of the kernel program, read as terms.

  Between its three regions the program regroups arrays on the host: the rows of the input are flattened, each weight is
  transposed and rounded, each bias becomes a one-row matrix, the three projections are regrouped by head, the attended
  rows are regrouped back, and the result is viewed again as a batch of sequences. Each theorem states the contents of
  one buffer after a stretch as that regrouping applied to the contents before it.
-/
import proofs.«100730_j73830487818494_2_alg».proof.Proof.Gen.KernelIdeal.Frame
import Idealize.ShloMosaic.PureOps.Ideal

noncomputable section

namespace Cert.KernelIdeal.Hand

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ) (ρ : Dev nD → PrngReg) (c : Dev nD)

/-- A buffer that no operation of a host stretch writes keeps its contents across the stretch. -/
local macro "host_keeps" : tactic =>
  `(tactic| (refine StableHlo.after_of_forall_not_mem _ _ (List.forall_iff_forall_mem.mp ?_)
             simp only [hostOps0, hostOps1, hostOps2, hostOps3, List.Forall, StableHlo.nullary_writes,
               StableHlo.unary_writes, StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

/-- The flattened rows of the input. -/
theorem rows_eq :
    (W1 m ρ c (Proc.devRef .tc main_v0) : S8192x1024.Idx → EReal)
      = shapeCast S8192x1024 (m ((c : Thread nD τ).loc main_arg0)) shapeCasts_S4x2048x1024_S8192x1024 := by
  dsimp only [W1, W0]
  simp only [hostOps0]
  after_results
  rfl

/-- The query weight, transposed and rounded. -/
theorem wq_eq :
    (W1 m ρ c (Proc.devRef .tc main_v2) : S1024x1024.Idx → EReal)
      = truncf (F := Ideal) .bf16
          (transpose S1024x1024 [1, 0] (m ((c : Thread nD τ).loc main_arg1) : FVec Ideal S1024x1024 .f32)
            transposes_S1024x1024_S1024x1024_1_0)
          bitsLt_bf16_f32 := by
  dsimp only [W1, W0]
  simp only [hostOps0]
  after_results

/-- The key weight, transposed and rounded. -/
theorem wk_eq :
    (W1 m ρ c (Proc.devRef .tc main_v4) : S1024x1024.Idx → EReal)
      = truncf (F := Ideal) .bf16
          (transpose S1024x1024 [1, 0] (m ((c : Thread nD τ).loc main_arg3) : FVec Ideal S1024x1024 .f32)
            transposes_S1024x1024_S1024x1024_1_0)
          bitsLt_bf16_f32 := by
  dsimp only [W1, W0]
  simp only [hostOps0]
  after_results

/-- The value weight, transposed and rounded. -/
theorem wv_eq :
    (W1 m ρ c (Proc.devRef .tc main_v6) : S1024x1024.Idx → EReal)
      = truncf (F := Ideal) .bf16
          (transpose S1024x1024 [1, 0] (m ((c : Thread nD τ).loc main_arg5) : FVec Ideal S1024x1024 .f32)
            transposes_S1024x1024_S1024x1024_1_0)
          bitsLt_bf16_f32 := by
  dsimp only [W1, W0]
  simp only [hostOps0]
  after_results

/-- The output weight, transposed and rounded. -/
theorem wo_eq :
    (W1 m ρ c (Proc.devRef .tc main_v8) : S1024x1024.Idx → EReal)
      = truncf (F := Ideal) .bf16
          (transpose S1024x1024 [1, 0] (m ((c : Thread nD τ).loc main_arg7) : FVec Ideal S1024x1024 .f32)
            transposes_S1024x1024_S1024x1024_1_0)
          bitsLt_bf16_f32 := by
  dsimp only [W1, W0]
  simp only [hostOps0]
  after_results

/-- The query bias as a one-row matrix. -/
theorem bq_eq :
    (W1 m ρ c (Proc.devRef .tc main_v9) : S1x1024.Idx → EReal)
      = shapeCast S1x1024 (m ((c : Thread nD τ).loc main_arg2)) shapeCasts_S1024_S1x1024 := by
  dsimp only [W1, W0]
  simp only [hostOps0]
  after_results
  rfl

/-- The key bias as a one-row matrix. -/
theorem bk_eq :
    (W1 m ρ c (Proc.devRef .tc main_v10) : S1x1024.Idx → EReal)
      = shapeCast S1x1024 (m ((c : Thread nD τ).loc main_arg4)) shapeCasts_S1024_S1x1024 := by
  dsimp only [W1, W0]
  simp only [hostOps0]
  after_results
  rfl

/-- The value bias as a one-row matrix. -/
theorem bv_eq :
    (W1 m ρ c (Proc.devRef .tc main_v11) : S1x1024.Idx → EReal)
      = shapeCast S1x1024 (m ((c : Thread nD τ).loc main_arg6)) shapeCasts_S1024_S1x1024 := by
  dsimp only [W1, W0]
  simp only [hostOps0]
  after_results
  rfl

/-- The query projection regrouped by head. -/
theorem qheads_eq :
    (W3 m ρ c (Proc.devRef .tc main_v15) : S64x2048x64.Idx → EReal)
      = shapeCast S64x2048x64
          (transpose S4x16x2048x64 [0, 2, 1, 3]
            (shapeCast S4x2048x16x64 (W2 m ρ c (Proc.devRef .tc main_v12_0) : S8192x1024.Idx → EReal)
              shapeCasts_S8192x1024_S4x2048x16x64)
            transposes_S4x2048x16x64_S4x16x2048x64_0_2_1_3)
          shapeCasts_S4x16x2048x64_S64x2048x64 := by
  dsimp only [W3]
  simp only [hostOps1]
  after_results
  rfl

/-- The key projection regrouped by head. -/
theorem kheads_eq :
    (W3 m ρ c (Proc.devRef .tc main_v18) : S64x2048x64.Idx → EReal)
      = shapeCast S64x2048x64
          (transpose S4x16x2048x64 [0, 2, 1, 3]
            (shapeCast S4x2048x16x64 (W2 m ρ c (Proc.devRef .tc main_v12_1) : S8192x1024.Idx → EReal)
              shapeCasts_S8192x1024_S4x2048x16x64)
            transposes_S4x2048x16x64_S4x16x2048x64_0_2_1_3)
          shapeCasts_S4x16x2048x64_S64x2048x64 := by
  dsimp only [W3]
  simp only [hostOps1]
  after_results
  rfl

/-- The value projection regrouped by head. -/
theorem vheads_eq :
    (W3 m ρ c (Proc.devRef .tc main_v21) : S64x2048x64.Idx → EReal)
      = shapeCast S64x2048x64
          (transpose S4x16x2048x64 [0, 2, 1, 3]
            (shapeCast S4x2048x16x64 (W2 m ρ c (Proc.devRef .tc main_v12_2) : S8192x1024.Idx → EReal)
              shapeCasts_S8192x1024_S4x2048x16x64)
            transposes_S4x2048x16x64_S4x16x2048x64_0_2_1_3)
          shapeCasts_S4x16x2048x64_S64x2048x64 := by
  dsimp only [W3]
  simp only [hostOps1]
  after_results
  rfl

/-- The attended rows regrouped back from heads to rows. -/
theorem unheads_eq :
    (W5 m ρ c (Proc.devRef .tc main_v25) : S8192x1024.Idx → EReal)
      = shapeCast S8192x1024
          (transpose S4x2048x16x64 [0, 2, 1, 3]
            (shapeCast S4x16x2048x64 (W4 m ρ c (Proc.devRef .tc main_v22) : S64x2048x64.Idx → EReal)
              shapeCasts_S64x2048x64_S4x16x2048x64)
            transposes_S4x16x2048x64_S4x2048x16x64_0_2_1_3)
          shapeCasts_S4x2048x16x64_S8192x1024 := by
  dsimp only [W5]
  simp only [hostOps2]
  after_results
  rfl

/-- The output bias is still the launch contents when the second region ends: no host operation writes it and no
    region has it among its arrays. -/
theorem bo_arg_eq : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by host_keeps
    _ = W1 m ρ c (Proc.devRef .tc main_arg8) := W2_of_ne m ρ c main_arg8 (by decide)
    _ = W0 m ρ c (Proc.devRef .tc main_arg8) := by host_keeps
    _ = m ((c : Thread nD τ).loc main_arg8) := rfl

/-- The output bias as a one-row matrix. -/
theorem bo_eq :
    (W5 m ρ c (Proc.devRef .tc main_v26) : S1x1024.Idx → EReal)
      = shapeCast S1x1024 (m ((c : Thread nD τ).loc main_arg8)) shapeCasts_S1024_S1x1024 := by
  have e : (W5 m ρ c (Proc.devRef .tc main_v26) : S1x1024.Idx → EReal)
      = shapeCast S1x1024 (W4 m ρ c (Proc.devRef .tc main_arg8) : S1024.Idx → EReal) shapeCasts_S1024_S1x1024 := by
    dsimp only [W5]
    simp only [hostOps2]
    after_results
    rfl
  rw [e, bo_arg_eq]

/-- The transposed and rounded output weight is not touched between the first stretch and the third region. -/
theorem wo_kept : W5 m ρ c (Proc.devRef .tc main_v8) = W1 m ρ c (Proc.devRef .tc main_v8) :=
  calc W5 m ρ c (Proc.devRef .tc main_v8)
    _ = W4 m ρ c (Proc.devRef .tc main_v8) := by host_keeps
    _ = W3 m ρ c (Proc.devRef .tc main_v8) := W4_of_ne m ρ c main_v8 (by decide)
    _ = W2 m ρ c (Proc.devRef .tc main_v8) := by host_keeps
    _ = W1 m ρ c (Proc.devRef .tc main_v8) := W2_of_ne m ρ c main_v8 (by decide)

/-- The result: the rows of the last region viewed again as a batch of sequences. -/
theorem result_eq :
    (W7 m ρ c (Proc.devRef .tc main_v28) : S4x2048x1024.Idx → EReal)
      = shapeCast S4x2048x1024 (W6 m ρ c (Proc.devRef .tc main_v27) : S8192x1024.Idx → EReal)
          shapeCasts_S8192x1024_S4x2048x1024 := by
  dsimp only [W7]
  simp only [hostOps3]
  after_results
  rfl

end Cert.KernelIdeal.Hand

end
-- ==== Proof.LibColumn.lean ====
/-
  Column forms of two layout operations, read at an index.

  A vector of length `a` viewed as an `[a, 1]` column by a shape cast reads, at `(p, 0)`, the vector at `p`, and the column
  viewed back as a vector reads, at `p`, the column at `(p, 0)`; an `[a, 1]` column broadcast along its unit axis to `[a, b]`
  reads, at `(p, q)`, the column at `(p, 0)`. Together they are what a sum along the last axis that keeps the axis (a row
  sum stored as a column, then spread over the row) reads at an index.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column cast to `[a]` reads, at `p`, the column's entry of row `p`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.KernelPay.lean ====
/-
  The three kernel bodies' arithmetic, read at an index of the stored block, at the extended reals.

  A projection body stores, at `(p, q)` of its `512 × 1024` block, the inner product of row `p` of its block of rows with
  column `q` of the (already transposed) weight, plus entry `q` of the bias row. The attention body stores, at `(0, p, d)`,
  the values of its head weighted by the exponentials of row `p`'s scaled scores shifted by their maximum, divided by the
  sum of those exponentials. A change of float format is the identity on the extended reals and a shape cast to the
  same shape does nothing, so nothing else is left of the bodies.
-/
import proofs.«100730_j73830487818494_2_alg».proof.Proof.Gen.KernelIdeal.Skeleton
import proofs.«100730_j73830487818494_2_alg».proof.Proof.Spec
import proofs.«100730_j73830487818494_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-- The matrix product of a `512 × 1024` block with a `1024 × 1024` block into the zero accumulator, at `(p, q)`: the inner
    product of row `p` of the left with column `q` of the right. -/
theorem matmul_rows_apply (l : FVec Ideal S512x1024 .bf16) (r : FVec Ideal S1024x1024 .bf16) (p : Fin 512) (q : Fin 1024) :
    matmul dot_S512x1024_S1024x1024_S512x1024_1_0_0_1_n_n none l r (constant S512x1024 .f32 0x00000000#32) (ix2 p q) = ∑ k : Fin 1024, l (ix2 p k) * r (ix2 k q) := by
  have l0 : ∀ (j : S512x1024.Idx) (kk : dot_S512x1024_S1024x1024_S512x1024_1_0_0_1_n_n.contr.Idx), (dot_S512x1024_S1024x1024_S512x1024_1_0_0_1_n_n.lhsIdx j kk 0).val = (j 0).val := fun j kk => by
    unfold DotDims.lhsIdx
    rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
    rfl
  have r1 : ∀ (j : S512x1024.Idx) (kk : dot_S512x1024_S1024x1024_S512x1024_1_0_0_1_n_n.contr.Idx), (dot_S512x1024_S1024x1024_S512x1024_1_0_0_1_n_n.rhsIdx j kk 1).val = (j 1).val := fun j kk => by
    unfold DotDims.rhsIdx
    rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
    rfl
  have l1 : ∀ (j : S512x1024.Idx) (kk : dot_S512x1024_S1024x1024_S512x1024_1_0_0_1_n_n.contr.Idx), (dot_S512x1024_S1024x1024_S512x1024_1_0_0_1_n_n.lhsIdx j kk 1).val = (kk ⟨0, by decide⟩).val :=
    fun j kk => dot_S512x1024_S1024x1024_S512x1024_1_0_0_1_n_n.lhsIdx_val_of_single rfl j kk
  have r0 : ∀ (j : S512x1024.Idx) (kk : dot_S512x1024_S1024x1024_S512x1024_1_0_0_1_n_n.contr.Idx), (dot_S512x1024_S1024x1024_S512x1024_1_0_0_1_n_n.rhsIdx j kk 0).val = (kk ⟨0, by decide⟩).val :=
    fun j kk => dot_S512x1024_S1024x1024_S512x1024_1_0_0_1_n_n.rhsIdx_val_of_single rfl j kk
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun ax => Fin.ext (by
    match ax with
    | ⟨0, _⟩ => exact l0 _ _
    | ⟨1, _⟩ => exact (l1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun ax => Fin.ext (by
    match ax with
    | ⟨0, _⟩ => exact (r0 _ _).trans hk
    | ⟨1, _⟩ => exact r1 _ _)
  rw [el, er]

/-- The matrix product of a `512 × 64` block with a `64 × 2048` block into the zero accumulator, at `(p, q)`: the inner
    product of row `p` of the left with column `q` of the right. -/
theorem matmul_scores_apply (l : FVec Ideal S512x64 .bf16) (r : FVec Ideal S64x2048 .bf16) (p : Fin 512) (q : Fin 2048) :
    matmul dot_S512x64_S64x2048_S512x2048_1_0_0_1_n_n none l r (constant S512x2048 .f32 0x00000000#32) (ix2 p q) = ∑ k : Fin 64, l (ix2 p k) * r (ix2 k q) := by
  have l0 : ∀ (j : S512x2048.Idx) (kk : dot_S512x64_S64x2048_S512x2048_1_0_0_1_n_n.contr.Idx), (dot_S512x64_S64x2048_S512x2048_1_0_0_1_n_n.lhsIdx j kk 0).val = (j 0).val := fun j kk => by
    unfold DotDims.lhsIdx
    rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
    rfl
  have r1 : ∀ (j : S512x2048.Idx) (kk : dot_S512x64_S64x2048_S512x2048_1_0_0_1_n_n.contr.Idx), (dot_S512x64_S64x2048_S512x2048_1_0_0_1_n_n.rhsIdx j kk 1).val = (j 1).val := fun j kk => by
    unfold DotDims.rhsIdx
    rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
    rfl
  have l1 : ∀ (j : S512x2048.Idx) (kk : dot_S512x64_S64x2048_S512x2048_1_0_0_1_n_n.contr.Idx), (dot_S512x64_S64x2048_S512x2048_1_0_0_1_n_n.lhsIdx j kk 1).val = (kk ⟨0, by decide⟩).val :=
    fun j kk => dot_S512x64_S64x2048_S512x2048_1_0_0_1_n_n.lhsIdx_val_of_single rfl j kk
  have r0 : ∀ (j : S512x2048.Idx) (kk : dot_S512x64_S64x2048_S512x2048_1_0_0_1_n_n.contr.Idx), (dot_S512x64_S64x2048_S512x2048_1_0_0_1_n_n.rhsIdx j kk 0).val = (kk ⟨0, by decide⟩).val :=
    fun j kk => dot_S512x64_S64x2048_S512x2048_1_0_0_1_n_n.rhsIdx_val_of_single rfl j kk
  simp only [matmul]
  rw [Ideal.matmul_constant_zero_apply, ← Equiv.sum_comp (contrEquiv1 dot_S512x64_S64x2048_S512x2048_1_0_0_1_n_n 64 rfl rfl).symm]
  refine Finset.sum_congr rfl fun k _ => ?_
  have hk := contrEquiv1_symm_val dot_S512x64_S64x2048_S512x2048_1_0_0_1_n_n 64 rfl rfl k
  have el : dot_S512x64_S64x2048_S512x2048_1_0_0_1_n_n.lhsIdx (ix2 p q) ((contrEquiv1 dot_S512x64_S64x2048_S512x2048_1_0_0_1_n_n 64 rfl rfl).symm k) = ix2 p k := funext fun ax => Fin.ext (by
    match ax with
    | ⟨0, _⟩ => exact l0 _ _
    | ⟨1, _⟩ => exact (l1 _ _).trans hk)
  have er : dot_S512x64_S64x2048_S512x2048_1_0_0_1_n_n.rhsIdx (ix2 p q) ((contrEquiv1 dot_S512x64_S64x2048_S512x2048_1_0_0_1_n_n 64 rfl rfl).symm k) = ix2 k q := funext fun ax => Fin.ext (by
    match ax with
    | ⟨0, _⟩ => exact (r0 _ _).trans hk
    | ⟨1, _⟩ => exact r1 _ _)
  rw [el, er]

/-- The matrix product of a `512 × 2048` block with a `2048 × 64` block into the zero accumulator, at `(p, q)`: the inner
    product of row `p` of the left with column `q` of the right. -/
theorem matmul_values_apply (l : FVec Ideal S512x2048 .bf16) (r : FVec Ideal S2048x64 .bf16) (p : Fin 512) (q : Fin 64) :
    matmul dot_S512x2048_S2048x64_S512x64_1_0_0_1_n_n none l r (constant S512x64 .f32 0x00000000#32) (ix2 p q) = ∑ k : Fin 2048, l (ix2 p k) * r (ix2 k q) := by
  have l0 : ∀ (j : S512x64.Idx) (kk : dot_S512x2048_S2048x64_S512x64_1_0_0_1_n_n.contr.Idx), (dot_S512x2048_S2048x64_S512x64_1_0_0_1_n_n.lhsIdx j kk 0).val = (j 0).val := fun j kk => by
    unfold DotDims.lhsIdx
    rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
    rfl
  have r1 : ∀ (j : S512x64.Idx) (kk : dot_S512x2048_S2048x64_S512x64_1_0_0_1_n_n.contr.Idx), (dot_S512x2048_S2048x64_S512x64_1_0_0_1_n_n.rhsIdx j kk 1).val = (j 1).val := fun j kk => by
    unfold DotDims.rhsIdx
    rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
    rfl
  have l1 : ∀ (j : S512x64.Idx) (kk : dot_S512x2048_S2048x64_S512x64_1_0_0_1_n_n.contr.Idx), (dot_S512x2048_S2048x64_S512x64_1_0_0_1_n_n.lhsIdx j kk 1).val = (kk ⟨0, by decide⟩).val :=
    fun j kk => dot_S512x2048_S2048x64_S512x64_1_0_0_1_n_n.lhsIdx_val_of_single rfl j kk
  have r0 : ∀ (j : S512x64.Idx) (kk : dot_S512x2048_S2048x64_S512x64_1_0_0_1_n_n.contr.Idx), (dot_S512x2048_S2048x64_S512x64_1_0_0_1_n_n.rhsIdx j kk 0).val = (kk ⟨0, by decide⟩).val :=
    fun j kk => dot_S512x2048_S2048x64_S512x64_1_0_0_1_n_n.rhsIdx_val_of_single rfl j kk
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 p q) ((contrEquiv1 dot_S512x2048_S2048x64_S512x64_1_0_0_1_n_n 2048 rfl rfl).symm k) = ix2 p k := funext fun ax => Fin.ext (by
    match ax with
    | ⟨0, _⟩ => exact l0 _ _
    | ⟨1, _⟩ => exact (l1 _ _).trans hk)
  have er : dot_S512x2048_S2048x64_S512x64_1_0_0_1_n_n.rhsIdx (ix2 p q) ((contrEquiv1 dot_S512x2048_S2048x64_S512x64_1_0_0_1_n_n 2048 rfl rfl).symm k) = ix2 k q := funext fun ax => Fin.ext (by
    match ax with
    | ⟨0, _⟩ => exact (r0 _ _).trans hk
    | ⟨1, _⟩ => exact r1 _ _)
  rw [el, er]

/-- A query, key or value projection's body at `(p, q)`: one term for the three stores. -/
theorem k0_pay2_apply (x0 : Vec Ideal S512x1024 .f32) (x1 : Vec Ideal S1024x1024 .bf16) (x2 : Vec Ideal S1x1024 .f32)
    (p : Fin 512) (q : Fin 1024) :
    k0_pay2 x0 x1 x2 (ix2 p q) = (∑ k : Fin 1024, x0 (ix2 p k) * x1 (ix2 k q)) + x2 (ix2 (0 : Fin 1) q) := by
  unfold k0_pay2 k0_pay1
  rw [truncf_apply, addf_apply, shapeCast_self, shapeCast_self, shapeCast_self, matmul_rows_apply, broadcastTo_1b_ab_apply]
  rfl

theorem k0_pay3_eq (x0 : Vec Ideal S512x1024 .f32) (x1 : Vec Ideal S1024x1024 .bf16) (x2 : Vec Ideal S1x1024 .f32) :
    k0_pay3 x0 x1 x2 = k0_pay2 x0 x1 x2 := rfl
theorem k0_pay4_eq (x0 : Vec Ideal S512x1024 .f32) (x1 : Vec Ideal S1024x1024 .bf16) (x2 : Vec Ideal S1x1024 .f32) :
    k0_pay4 x0 x1 x2 = k0_pay2 x0 x1 x2 := rfl

/-- The output projection's body at `(p, q)`. -/
theorem k2_pay1_apply (x0 : Vec Ideal S512x1024 .bf16) (x1 : Vec Ideal S1024x1024 .bf16) (x2 : Vec Ideal S1x1024 .f32)
    (p : Fin 512) (q : Fin 1024) :
    k2_pay1 x0 x1 x2 (ix2 p q) = (∑ k : Fin 1024, x0 (ix2 p k) * x1 (ix2 k q)) + x2 (ix2 (0 : Fin 1) q) := by
  unfold k2_pay1
  rw [addf_apply, shapeCast_self, shapeCast_self, shapeCast_self, matmul_rows_apply, broadcastTo_1b_ab_apply]

/-- A sum along the rows of a `512 × 2048` block, from the zero word, at row `p`. -/
theorem rowsum_apply (v : FVec Ideal S512x2048 .f32) (h : S512x2048.Reduces [1] S512) (hφ : FTy.f32 = FTy.f32 ∨ FTy.f32 = FTy.bf16)
    (hacc : (0x00000000#32 : BitVec 32) = 0x00000000#32) (p : Fin 512) :
    multiReduction .add [1] S512 v 0x00000000#32 h hφ hacc (ix1 p) = ∑ k : Fin 2048, v (ix2 p k) := by
  refine (Ideal.multiReduction_add_single v 0x00000000#32 h hφ hacc (ix1 p)).trans ?_
  show ∑ k : Fin 2048, v (h.lift (ix1 p) k) = _
  refine Finset.sum_congr rfl fun k _ => congrArg v (funext fun a => Fin.ext ?_)
  match a with
  | ⟨0, _⟩ => rfl
  | ⟨1, _⟩ => rfl

/-- A maximum along the rows of a `512 × 2048` block, from minus infinity, at row `p`. -/
theorem rowmax_apply (v : FVec Ideal S512x2048 .f32) (h : S512x2048.Reduces [1] S512) (hφ : FTy.f32 = FTy.f32 ∨ FTy.f32 = FTy.bf16)
    (hacc : (0xFF800000#32 : BitVec 32) = 0xFF800000#32) (p : Fin 512) :
    multiReduction .maximumf [1] S512 v 0xFF800000#32 h hφ hacc (ix1 p)
      = Cert.Mha.rowMax (fun k => v (ix2 p k)) := by
  refine (Ideal.multiReduction_maximumf_single v 0xFF800000#32 h hφ hacc (ix1 p)).trans ?_
  unfold Cert.Mha.rowMax
  refine Finset.fold_congr fun k _ => congrArg v (funext fun a => Fin.ext ?_)
  match a with
  | ⟨0, _⟩ => rfl
  | ⟨1, _⟩ => rfl

/-- One attended entry: values weighted by the exponentials of the scores shifted by their maximum, over the sum of those
    exponentials. -/
def attRow (s v : Fin 2048 → EReal) : EReal :=
  Ideal.div (∑ k : Fin 2048, Ideal.exp (s k - Cert.Mha.rowMax s) * v k) (∑ k : Fin 2048, Ideal.exp (s k - Cert.Mha.rowMax s))

theorem attAt_eq (Q K V : Cert.Mha.SHeads.Idx → EReal) (h : Fin 64) (q : Fin 2048) (d : Fin 64) :
    Cert.Mha.attAt Q K V h q d = attRow (Cert.Mha.score Q K h q) (fun k => V (ix3 h k d)) := rfl

theorem exp_apply' {s : Shape} (v : FVec Ideal s .f32) (i : s.Idx) : exp v i = Ideal.exp (v i) := rfl

/-- The scaled scores of a block of 512 query rows against the 2048 key rows, at `(p, k)`. -/
theorem scores_apply (x0 : Vec Ideal S1x512x64 .bf16) (x1 : Vec Ideal S1x2048x64 .bf16)
    (h1 : S1x512x64.ShapeCasts S512x64) (h2 : S1x2048x64.ShapeCasts S2048x64) (h3 : S2048x64.Transposes [1, 0] S64x2048)
    (p : Fin 512) (k : Fin 2048) :
    mulf (matmul dot_S512x64_S64x2048_S512x2048_1_0_0_1_n_n none (shapeCast S512x64 x0 h1 : FVec Ideal S512x64 .bf16)
        (transpose S64x2048 [1, 0] (shapeCast S2048x64 x1 h2 : FVec Ideal S2048x64 .bf16) h3 : FVec Ideal S64x2048 .bf16) (constant S512x2048 .f32 0x00000000#32))
      (broadcast S512x2048 (FloatOps.ofBits (F := Ideal) .f32 0x3E000000#32)) (ix2 p k)
      = (∑ e : Fin 64, x0 (ix3 (0 : Fin 1) p e) * x1 (ix3 (0 : Fin 1) k e)) * Ideal.ofBits .f32 0x3E000000#32 := by
  rw [mulf_apply, matmul_scores_apply, broadcast_apply]
  refine congrArg (· * _) (Finset.sum_congr rfl fun e _ => ?_)
  rw [shapeCast_1ab_ab_apply, transpose_ix2_apply (a := 2048) (b := 64), shapeCast_1ab_ab_apply]

/-- The attention body after the scores, for any block `S` of scores and any block `V2` of values: at `(p, d)` it is the
    attended entry of row `p` of `S` against column `d` of `V2`. -/
theorem att_core (S : FVec Ideal S512x2048 .f32) (V2 : FVec Ideal S2048x64 .bf16)
    (hr : S512x2048.Reduces [1] S512) (hφ : FTy.f32 = FTy.f32 ∨ FTy.f32 = FTy.bf16)
    (hm : (0xFF800000#32 : BitVec 32) = 0xFF800000#32) (ha : (0x00000000#32 : BitVec 32) = 0x00000000#32)
    (hc : S512.ShapeCasts S512x1) (hb : S512x1.Broadcasts S512x2048) (hb' : S512x1.Broadcasts S512x64)
    (hlt : FTy.bits .bf16 < FTy.bits .f32) (p : Fin 512) (d : Fin 64) :
    divf (matmul dot_S512x2048_S2048x64_S512x64_1_0_0_1_n_n none
        (truncf .bf16 (exp (subf S (broadcastTo S512x2048 (shapeCast S512x1
          (multiReduction .maximumf [1] S512 S 0xFF800000#32 hr hφ hm) hc) hb))) hlt) V2 (constant S512x64 .f32 0x00000000#32))
      (broadcastTo S512x64 (shapeCast S512x1 (multiReduction .add [1] S512 (exp (subf S (broadcastTo S512x2048 (shapeCast S512x1
          (multiReduction .maximumf [1] S512 S 0xFF800000#32 hr hφ hm) hc) hb))) 0x00000000#32 hr hφ ha) hc) hb') (ix2 p d)
      = attRow (fun k => S (ix2 p k)) (fun k => V2 (ix2 k d)) := by
  rw [divf_apply, matmul_values_apply, Cert.Lib.Column.broadcastTo_a1_ab_apply, Cert.Lib.Column.shapeCast_a_a1_apply, rowsum_apply]
  simp only [truncf_apply, exp_apply', subf_apply, Cert.Lib.Column.broadcastTo_a1_ab_apply, Cert.Lib.Column.shapeCast_a_a1_apply]
  rw [rowmax_apply]
  rfl

/-- The attention body at `(0, p, d)`. -/
theorem k1_pay1_apply (x0 : Vec Ideal S1x512x64 .bf16) (x1 x2 : Vec Ideal S1x2048x64 .bf16) (p : Fin 512) (d : Fin 64) :
    k1_pay1 x0 x1 x2 (ix3 (0 : Fin 1) p d)
      = attRow (fun k => (∑ e : Fin 64, x0 (ix3 (0 : Fin 1) p e) * x1 (ix3 (0 : Fin 1) k e)) * Ideal.ofBits .f32 0x3E000000#32)
          (fun k => x2 (ix3 (0 : Fin 1) k d)) := by
  unfold k1_pay1
  rw [shapeCast_ab_1ab_apply, truncf_apply, att_core]
  exact congrArg₂ attRow (funext fun k => scores_apply x0 x1 _ _ _ p k) (funext fun k => shapeCast_1ab_ab_apply x2 _ k d)

end Cert.KernelIdeal.Hand

end
-- ==== Proof.KernelQKV.lean ====
/-
  The kernel that projects queries, keys and values, from blocks to the whole arrays.

  The kernel visits 16 grid points; point `t` reads rows `512 t … 512 t + 511` of the input rows and the three whole
  weights and bias rows, and writes back rows `512 t … 512 t + 511` of three results, each by the same arithmetic: at
  `(p, q)` the inner product of input row `512 t + p` with the weight's column `q` plus the bias entry `q`, that is entry
  `(512 t + p, q)` of the projection of ALL rows. Row `r` lies in the block of point `r / 512`, so each result array ends
  holding the projection of all rows by its own weight and bias.
-/
import proofs.«100730_j73830487818494_2_alg».proof.Proof.Gen.KernelIdeal.Frame
import proofs.«100730_j73830487818494_2_alg».proof.Proof.Spec
import proofs.«100730_j73830487818494_2_alg».proof.Proof.KernelPay
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

-- the buffer contents the kernel finds when it starts: a parameter of everything below
variable (V : (c : Dev nD) → (b : Ref sig .tc) → Buf (Elt Ideal) ((c : Thread nD τ).loc b))

theorem zeroOffsets2q : (![0, 0] : Fin 2 → Nat) = fun _ => 0 := funext fun a => by fin_cases a <;> rfl

/-- The block index of every window at every point: the windows of rows (the input and the three results) move with the
    point, the weights and biases stay. -/
theorem blockIndex0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0
    ∧ win0_9.index t (0 : Fin 2) = t.val
    ∧ win0_9.index t (1 : Fin 2) = 0 :=
  (by decide +kernel : ∀ t : Fin grid0.N, _)

/-- What a point stores at `y` of a result block is the projection of all rows at the array index `i` under `y`, when the
    block of rows it read is rows `512 T …` of `X` and it read the whole weight and bias. -/
theorem qkv_block (X : Cert.Mha.SRows.Idx → EReal) (Wt : Cert.Mha.SW.Idx → EReal) (b : Cert.Mha.SRow1.Idx → EReal)
    (x0 : Vec Ideal S512x1024 .f32) (x1 : Vec Ideal S1024x1024 .bf16) (x2 : Vec Ideal S1x1024 .f32) (T : Nat)
    (h0 : ∀ (p : Fin 512) (k : Fin 1024) (i : Cert.Mha.SRows.Idx), (i 0).val = T * 512 + p.val → (i 1).val = k.val → x0 (ix2 p k) = X i)
    (h1 : ∀ i, x1 i = Wt i) (h2 : ∀ i, x2 i = b i)
    (y : S512x1024.Idx) (i : Cert.Mha.SRows.Idx) (hi0 : (i 0).val = T * 512 + (y 0).val) (hi1 : (i 1).val = (y 1).val) :
    k0_pay2 x0 x1 x2 y = Cert.Mha.lin X Wt b i := by
  obtain ⟨p, q, rfl⟩ : ∃ (p : Fin 512) (q : Fin 1024), y = ix2 p q := ⟨y 0, y 1, eq_ix2 y⟩
  rw [k0_pay2_apply]
  show _ = (∑ k : Fin 1024, X (ix2 (i 0) k) * Wt (ix2 k (i 1))) + b (ix2 (0 : Fin 1) (i 1))
  have eq : (i 1 : Fin 1024) = q := Fin.ext hi1
  rw [eq]
  refine congrArg₂ (· + ·) (Finset.sum_congr rfl fun k _ => ?_) (h2 _)
  rw [h0 p k (ix2 (i 0) k) hi0 rfl, h1]

/-- What point `t` writes back to the Q result is block `t` of the projection of all rows by that weight and bias. -/
theorem flushed0_7 (c : Dev nD) (t : Fin cfg0.N) :
    (dat0 V c).flushed 7 t = ((cfg0.win 7).blk t).view.read (Elt Ideal)
      (Cert.Mha.lin (V c main_v0) (V c main_v2) (V c main_v9)) := by
  show (cfg0.win 7).cut (grid0.coords t) ((dat0 V c).after 7 t) = _
  rw [after0_7]
  unfold out0_7
  rw [View.canon_unit_zero zeroOffsets2q]
  simp only [View.ld_unit_zero (S := S512x1024) zeroOffsets2q, View.ld_unit_zero (S := S1024x1024) zeroOffsets2q,
    View.ld_unit_zero (S := S1x1024) zeroOffsets2q]
  obtain ⟨e00, e01, e10, e11, e20, e21, e30, e31, e40, e41, e50, e51, e60, e61, e70, e71, e80, e81, e90, e91⟩ := blockIndex0 t
  funext j
  refine qkv_block (V c main_v0) (V c main_v2) (V c main_v9) (iblk0 V c 0 t) (iblk0 V c 1 t) (iblk0 V c 2 t) t.val
    ?_ ?_ ?_ j (((cfg0.win 7).blk t).view.emb j) ?_ ?_
  · intro p k i hi0 hi1
    show V c main_v0 (((cfg0.win 0).blk t).view.emb (ix2 p k)) = V c main_v0 i
    refine congrArg _ (funext fun a => Fin.ext ?_)
    match a with
    | ⟨0, _⟩ => show win0_0.index t (0 : Fin 2) * 512 + 1 * p.val = (i 0).val; rw [e00, hi0]; omega
    | ⟨1, _⟩ => show win0_0.index t (1 : Fin 2) * 1024 + 1 * k.val = (i 1).val; rw [e01, hi1]; omega
  · intro i
    show V c main_v2 (((cfg0.win 1).blk t).view.emb i) = V c main_v2 i
    refine congrArg _ (funext fun a => Fin.ext ?_)
    match a with
    | ⟨0, _⟩ => show win0_1.index t (0 : Fin 2) * 1024 + 1 * (i 0).val = (i 0).val; rw [e10]; omega
    | ⟨1, _⟩ => show win0_1.index t (1 : Fin 2) * 1024 + 1 * (i 1).val = (i 1).val; rw [e11]; omega
  · intro i
    show V c main_v9 (((cfg0.win 2).blk t).view.emb i) = V c main_v9 i
    refine congrArg _ (funext fun a => Fin.ext ?_)
    match a with
    | ⟨0, _⟩ => show win0_2.index t (0 : Fin 2) * 1 + 1 * (i 0).val = (i 0).val; rw [e20]; omega
    | ⟨1, _⟩ => show win0_2.index t (1 : Fin 2) * 1024 + 1 * (i 1).val = (i 1).val; rw [e21]; omega
  · show win0_7.index t (0 : Fin 2) * 512 + 1 * (j 0).val = t.val * 512 + (j 0).val; rw [e70]; omega
  · show win0_7.index t (1 : Fin 2) * 1024 + 1 * (j 1).val = (j 1).val; rw [e71]; omega

/-- An index of the Q result lies in point `t`'s block when each coordinate lies in the block's range on its axis. -/
theorem mem_block0_7 (t : Fin cfg0.N) (i : S8192x1024.Idx) :
    i ∈ ((cfg0.win 7).blk t).view.set ↔ ∀ a : Fin 2, win0_7.index t a * S512x1024.size a ≤ (i a).val
      ∧ (i a).val < win0_7.index t a * S512x1024.size a + S512x1024.size a := by
  show i ∈ ((View.whole main_v12_0).slice (win0_7.rect t)).set ↔ _
  rw [View.set_slice_whole, Rect.mem_set_unit]
  exact Iff.rfl

/-- Row `r` of the Q result lies in the block of point `r / 512`. -/
theorem cover0_7' (i : S8192x1024.Idx) :
    ∃ t : Fin cfg0.N, (cfg0.win 7).flush t = true ∧ i ∈ ((cfg0.win 7).blk t).view.set := by
  have hN : cfg0.N = 16 := N_0
  have hi0 : (i 0).val < 8192 := (i 0).isLt
  have hi1 : (i 1).val < 1024 := (i 1).isLt
  have ht : (i 0).val / 512 < cfg0.N := by rw [hN]; omega
  obtain ⟨e00, e01, e10, e11, e20, e21, e30, e31, e40, e41, e50, e51, e60, e61, e70, e71, e80, e81, e90, e91⟩ := blockIndex0 ⟨(i 0).val / 512, ht⟩
  refine ⟨⟨(i 0).val / 512, ht⟩, flush0_7 _, ?_⟩
  rw [mem_block0_7]
  intro a
  match a with
  | ⟨0, _⟩ =>
    show win0_7.index ⟨(i 0).val / 512, ht⟩ (0 : Fin 2) * 512 ≤ (i 0).val
      ∧ (i 0).val < win0_7.index ⟨(i 0).val / 512, ht⟩ (0 : Fin 2) * 512 + 512
    rw [e70]; show (i 0).val / 512 * 512 ≤ (i 0).val ∧ (i 0).val < (i 0).val / 512 * 512 + 512; omega
  | ⟨1, _⟩ =>
    show win0_7.index ⟨(i 0).val / 512, ht⟩ (1 : Fin 2) * 1024 ≤ (i 1).val
      ∧ (i 1).val < win0_7.index ⟨(i 0).val / 512, ht⟩ (1 : Fin 2) * 1024 + 1024
    rw [e71]; omega

/-- After the kernel the Q result array is the projection of all rows by that weight and bias. -/
theorem qkv_array_7 (c : Dev nD) :
    (dat0 V c).arrAt 7 cfg0.N = Cert.Mha.lin (V c main_v0) (V c main_v2) (V c main_v9) :=
  (dat0 V c).arrAt_eq_of_cover 7 (Cert.Mha.lin (V c main_v0) (V c main_v2) (V c main_v9))
    (fun t _ => flushed0_7 V c t) (cover0_7')

/-- What point `t` writes back to the K result is block `t` of the projection of all rows by that weight and bias. -/
theorem flushed0_8 (c : Dev nD) (t : Fin cfg0.N) :
    (dat0 V c).flushed 8 t = ((cfg0.win 8).blk t).view.read (Elt Ideal)
      (Cert.Mha.lin (V c main_v0) (V c main_v4) (V c main_v10)) := by
  show (cfg0.win 8).cut (grid0.coords t) ((dat0 V c).after 8 t) = _
  rw [after0_8]
  unfold out0_8
  rw [View.canon_unit_zero zeroOffsets2q]
  simp only [View.ld_unit_zero (S := S512x1024) zeroOffsets2q, View.ld_unit_zero (S := S1024x1024) zeroOffsets2q,
    View.ld_unit_zero (S := S1x1024) zeroOffsets2q]
  rw [k0_pay3_eq]
  obtain ⟨e00, e01, e10, e11, e20, e21, e30, e31, e40, e41, e50, e51, e60, e61, e70, e71, e80, e81, e90, e91⟩ := blockIndex0 t
  funext j
  refine qkv_block (V c main_v0) (V c main_v4) (V c main_v10) (iblk0 V c 0 t) (iblk0 V c 3 t) (iblk0 V c 4 t) t.val
    ?_ ?_ ?_ j (((cfg0.win 8).blk t).view.emb j) ?_ ?_
  · intro p k i hi0 hi1
    show V c main_v0 (((cfg0.win 0).blk t).view.emb (ix2 p k)) = V c main_v0 i
    refine congrArg _ (funext fun a => Fin.ext ?_)
    match a with
    | ⟨0, _⟩ => show win0_0.index t (0 : Fin 2) * 512 + 1 * p.val = (i 0).val; rw [e00, hi0]; omega
    | ⟨1, _⟩ => show win0_0.index t (1 : Fin 2) * 1024 + 1 * k.val = (i 1).val; rw [e01, hi1]; omega
  · intro i
    show V c main_v4 (((cfg0.win 3).blk t).view.emb i) = V c main_v4 i
    refine congrArg _ (funext fun a => Fin.ext ?_)
    match a with
    | ⟨0, _⟩ => show win0_3.index t (0 : Fin 2) * 1024 + 1 * (i 0).val = (i 0).val; rw [e30]; omega
    | ⟨1, _⟩ => show win0_3.index t (1 : Fin 2) * 1024 + 1 * (i 1).val = (i 1).val; rw [e31]; omega
  · intro i
    show V c main_v10 (((cfg0.win 4).blk t).view.emb i) = V c main_v10 i
    refine congrArg _ (funext fun a => Fin.ext ?_)
    match a with
    | ⟨0, _⟩ => show win0_4.index t (0 : Fin 2) * 1 + 1 * (i 0).val = (i 0).val; rw [e40]; omega
    | ⟨1, _⟩ => show win0_4.index t (1 : Fin 2) * 1024 + 1 * (i 1).val = (i 1).val; rw [e41]; omega
  · show win0_8.index t (0 : Fin 2) * 512 + 1 * (j 0).val = t.val * 512 + (j 0).val; rw [e80]; omega
  · show win0_8.index t (1 : Fin 2) * 1024 + 1 * (j 1).val = (j 1).val; rw [e81]; omega

/-- An index of the K result lies in point `t`'s block when each coordinate lies in the block's range on its axis. -/
theorem mem_block0_8 (t : Fin cfg0.N) (i : S8192x1024.Idx) :
    i ∈ ((cfg0.win 8).blk t).view.set ↔ ∀ a : Fin 2, win0_8.index t a * S512x1024.size a ≤ (i a).val
      ∧ (i a).val < win0_8.index t a * S512x1024.size a + S512x1024.size a := by
  show i ∈ ((View.whole main_v12_1).slice (win0_8.rect t)).set ↔ _
  rw [View.set_slice_whole, Rect.mem_set_unit]
  exact Iff.rfl

/-- Row `r` of the K result lies in the block of point `r / 512`. -/
theorem cover0_8' (i : S8192x1024.Idx) :
    ∃ t : Fin cfg0.N, (cfg0.win 8).flush t = true ∧ i ∈ ((cfg0.win 8).blk t).view.set := by
  have hN : cfg0.N = 16 := N_0
  have hi0 : (i 0).val < 8192 := (i 0).isLt
  have hi1 : (i 1).val < 1024 := (i 1).isLt
  have ht : (i 0).val / 512 < cfg0.N := by rw [hN]; omega
  obtain ⟨e00, e01, e10, e11, e20, e21, e30, e31, e40, e41, e50, e51, e60, e61, e70, e71, e80, e81, e90, e91⟩ := blockIndex0 ⟨(i 0).val / 512, ht⟩
  refine ⟨⟨(i 0).val / 512, ht⟩, flush0_8 _, ?_⟩
  rw [mem_block0_8]
  intro a
  match a with
  | ⟨0, _⟩ =>
    show win0_8.index ⟨(i 0).val / 512, ht⟩ (0 : Fin 2) * 512 ≤ (i 0).val
      ∧ (i 0).val < win0_8.index ⟨(i 0).val / 512, ht⟩ (0 : Fin 2) * 512 + 512
    rw [e80]; show (i 0).val / 512 * 512 ≤ (i 0).val ∧ (i 0).val < (i 0).val / 512 * 512 + 512; omega
  | ⟨1, _⟩ =>
    show win0_8.index ⟨(i 0).val / 512, ht⟩ (1 : Fin 2) * 1024 ≤ (i 1).val
      ∧ (i 1).val < win0_8.index ⟨(i 0).val / 512, ht⟩ (1 : Fin 2) * 1024 + 1024
    rw [e81]; omega

/-- After the kernel the K result array is the projection of all rows by that weight and bias. -/
theorem qkv_array_8 (c : Dev nD) :
    (dat0 V c).arrAt 8 cfg0.N = Cert.Mha.lin (V c main_v0) (V c main_v4) (V c main_v10) :=
  (dat0 V c).arrAt_eq_of_cover 8 (Cert.Mha.lin (V c main_v0) (V c main_v4) (V c main_v10))
    (fun t _ => flushed0_8 V c t) (cover0_8')

/-- What point `t` writes back to the V result is block `t` of the projection of all rows by that weight and bias. -/
theorem flushed0_9 (c : Dev nD) (t : Fin cfg0.N) :
    (dat0 V c).flushed 9 t = ((cfg0.win 9).blk t).view.read (Elt Ideal)
      (Cert.Mha.lin (V c main_v0) (V c main_v6) (V c main_v11)) := by
  show (cfg0.win 9).cut (grid0.coords t) ((dat0 V c).after 9 t) = _
  rw [after0_9]
  unfold out0_9
  rw [View.canon_unit_zero zeroOffsets2q]
  simp only [View.ld_unit_zero (S := S512x1024) zeroOffsets2q, View.ld_unit_zero (S := S1024x1024) zeroOffsets2q,
    View.ld_unit_zero (S := S1x1024) zeroOffsets2q]
  rw [k0_pay4_eq]
  obtain ⟨e00, e01, e10, e11, e20, e21, e30, e31, e40, e41, e50, e51, e60, e61, e70, e71, e80, e81, e90, e91⟩ := blockIndex0 t
  funext j
  refine qkv_block (V c main_v0) (V c main_v6) (V c main_v11) (iblk0 V c 0 t) (iblk0 V c 5 t) (iblk0 V c 6 t) t.val
    ?_ ?_ ?_ j (((cfg0.win 9).blk t).view.emb j) ?_ ?_
  · intro p k i hi0 hi1
    show V c main_v0 (((cfg0.win 0).blk t).view.emb (ix2 p k)) = V c main_v0 i
    refine congrArg _ (funext fun a => Fin.ext ?_)
    match a with
    | ⟨0, _⟩ => show win0_0.index t (0 : Fin 2) * 512 + 1 * p.val = (i 0).val; rw [e00, hi0]; omega
    | ⟨1, _⟩ => show win0_0.index t (1 : Fin 2) * 1024 + 1 * k.val = (i 1).val; rw [e01, hi1]; omega
  · intro i
    show V c main_v6 (((cfg0.win 5).blk t).view.emb i) = V c main_v6 i
    refine congrArg _ (funext fun a => Fin.ext ?_)
    match a with
    | ⟨0, _⟩ => show win0_5.index t (0 : Fin 2) * 1024 + 1 * (i 0).val = (i 0).val; rw [e50]; omega
    | ⟨1, _⟩ => show win0_5.index t (1 : Fin 2) * 1024 + 1 * (i 1).val = (i 1).val; rw [e51]; omega
  · intro i
    show V c main_v11 (((cfg0.win 6).blk t).view.emb i) = V c main_v11 i
    refine congrArg _ (funext fun a => Fin.ext ?_)
    match a with
    | ⟨0, _⟩ => show win0_6.index t (0 : Fin 2) * 1 + 1 * (i 0).val = (i 0).val; rw [e60]; omega
    | ⟨1, _⟩ => show win0_6.index t (1 : Fin 2) * 1024 + 1 * (i 1).val = (i 1).val; rw [e61]; omega
  · show win0_9.index t (0 : Fin 2) * 512 + 1 * (j 0).val = t.val * 512 + (j 0).val; rw [e90]; omega
  · show win0_9.index t (1 : Fin 2) * 1024 + 1 * (j 1).val = (j 1).val; rw [e91]; omega

/-- An index of the V result lies in point `t`'s block when each coordinate lies in the block's range on its axis. -/
theorem mem_block0_9 (t : Fin cfg0.N) (i : S8192x1024.Idx) :
    i ∈ ((cfg0.win 9).blk t).view.set ↔ ∀ a : Fin 2, win0_9.index t a * S512x1024.size a ≤ (i a).val
      ∧ (i a).val < win0_9.index t a * S512x1024.size a + S512x1024.size a := by
  show i ∈ ((View.whole main_v12_2).slice (win0_9.rect t)).set ↔ _
  rw [View.set_slice_whole, Rect.mem_set_unit]
  exact Iff.rfl

/-- Row `r` of the V result lies in the block of point `r / 512`. -/
theorem cover0_9' (i : S8192x1024.Idx) :
    ∃ t : Fin cfg0.N, (cfg0.win 9).flush t = true ∧ i ∈ ((cfg0.win 9).blk t).view.set := by
  have hN : cfg0.N = 16 := N_0
  have hi0 : (i 0).val < 8192 := (i 0).isLt
  have hi1 : (i 1).val < 1024 := (i 1).isLt
  have ht : (i 0).val / 512 < cfg0.N := by rw [hN]; omega
  obtain ⟨e00, e01, e10, e11, e20, e21, e30, e31, e40, e41, e50, e51, e60, e61, e70, e71, e80, e81, e90, e91⟩ := blockIndex0 ⟨(i 0).val / 512, ht⟩
  refine ⟨⟨(i 0).val / 512, ht⟩, flush0_9 _, ?_⟩
  rw [mem_block0_9]
  intro a
  match a with
  | ⟨0, _⟩ =>
    show win0_9.index ⟨(i 0).val / 512, ht⟩ (0 : Fin 2) * 512 ≤ (i 0).val
      ∧ (i 0).val < win0_9.index ⟨(i 0).val / 512, ht⟩ (0 : Fin 2) * 512 + 512
    rw [e90]; show (i 0).val / 512 * 512 ≤ (i 0).val ∧ (i 0).val < (i 0).val / 512 * 512 + 512; omega
  | ⟨1, _⟩ =>
    show win0_9.index ⟨(i 0).val / 512, ht⟩ (1 : Fin 2) * 1024 ≤ (i 1).val
      ∧ (i 1).val < win0_9.index ⟨(i 0).val / 512, ht⟩ (1 : Fin 2) * 1024 + 1024
    rw [e91]; omega

/-- After the kernel the V result array is the projection of all rows by that weight and bias. -/
theorem qkv_array_9 (c : Dev nD) :
    (dat0 V c).arrAt 9 cfg0.N = Cert.Mha.lin (V c main_v0) (V c main_v6) (V c main_v11) :=
  (dat0 V c).arrAt_eq_of_cover 9 (Cert.Mha.lin (V c main_v0) (V c main_v6) (V c main_v11))
    (fun t _ => flushed0_9 V c t) (cover0_9')

end Cert.KernelIdeal.Hand

end
-- ==== Proof.KernelAttn.lean ====
/-
  The attention kernel, from blocks to the whole array.

  The kernel visits 256 grid points, point `t` being head `t / 4` (batch and head merged, 64 of them) and block `t % 4` of
  512 query rows. It reads that block of the head's queries and ALL 2048 rows of the head's keys and values, and writes
  back the same block of rows of the head's result: at `(0, p, d)` the attended entry of query row `512 (t % 4) + p`,
  column `d`, which is entry `(t / 4, 512 (t % 4) + p, d)` of the attention of every head. Entry `(h, r, d)` lies in the block
  of point `4 h + r / 512`, so the blocks cover the array.
-/
import proofs.«100730_j73830487818494_2_alg».proof.Proof.Gen.KernelIdeal.Frame
import proofs.«100730_j73830487818494_2_alg».proof.Proof.Spec
import proofs.«100730_j73830487818494_2_alg».proof.Proof.KernelPay
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

-- the buffer contents the kernel finds when it starts: a parameter of everything below
variable (V : (c : Dev nD) → (b : Ref sig .tc) → Buf (Elt Ideal) ((c : Thread nD τ).loc b))

theorem zeroOffsets3 : (![0, 0, 0] : Fin 3 → Nat) = fun _ => 0 := funext fun a => by fin_cases a <;> rfl

/-- The block index of every window at every point: head `t / 4` for all four; row block `t % 4` for the queries and the
    result, the whole head for keys and values. -/
theorem blockIndex1 : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = t.val % 4 ∧ win1_3.index t (2 : Fin 3) = 0 :=
  (by decide +kernel : ∀ t : Fin grid1.N, _)

/-- What a point stores at `y` of its block is the attention of every head at the array index `i` under `y`, when the
    blocks it read are rows `512 T …` of head `H` of the queries and all of head `H` of the keys and values. -/
theorem att_block (Q K W : Cert.Mha.SHeads.Idx → EReal) (x0 : Vec Ideal S1x512x64 .bf16) (x1 x2 : Vec Ideal S1x2048x64 .bf16)
    (H T : Nat)
    (h0 : ∀ (p : Fin 512) (e : Fin 64) (i : Cert.Mha.SHeads.Idx), (i 0).val = H → (i 1).val = T * 512 + p.val →
      (i 2).val = e.val → x0 (ix3 (0 : Fin 1) p e) = Q i)
    (h1 : ∀ (k : Fin 2048) (e : Fin 64) (i : Cert.Mha.SHeads.Idx), (i 0).val = H → (i 1).val = k.val →
      (i 2).val = e.val → x1 (ix3 (0 : Fin 1) k e) = K i)
    (h2 : ∀ (k : Fin 2048) (e : Fin 64) (i : Cert.Mha.SHeads.Idx), (i 0).val = H → (i 1).val = k.val →
      (i 2).val = e.val → x2 (ix3 (0 : Fin 1) k e) = W i)
    (y : S1x512x64.Idx) (i : Cert.Mha.SHeads.Idx) (hi0 : (i 0).val = H) (hi1 : (i 1).val = T * 512 + (y 1).val)
    (hi2 : (i 2).val = (y 2).val) :
    k1_pay1 x0 x1 x2 y = Cert.Mha.att Q K W i := by
  obtain ⟨u, p, d, rfl⟩ : ∃ (u : Fin 1) (p : Fin 512) (d : Fin 64), y = ix3 u p d := ⟨y 0, y 1, y 2, eq_ix3 y⟩
  obtain rfl : u = 0 := Subsingleton.elim _ _
  rw [k1_pay1_apply]
  show _ = attRow (Cert.Mha.score Q K (i 0) (i 1)) (fun k => W (ix3 (i 0) k (i 2)))
  refine congrArg₂ attRow (funext fun k => ?_) (funext fun k => ?_)
  · show (∑ e : Fin 64, x0 (ix3 (0 : Fin 1) p e) * x1 (ix3 (0 : Fin 1) k e)) * _
      = (∑ e : Fin 64, Q (ix3 (i 0) (i 1) e) * K (ix3 (i 0) k e)) * _
    refine congrArg (· * _) (Finset.sum_congr rfl fun e _ => ?_)
    rw [h0 p e (ix3 (i 0) (i 1) e) hi0 hi1 rfl, h1 k e (ix3 (i 0) k e) hi0 rfl rfl]
  · exact h2 k d (ix3 (i 0) k (i 2)) hi0 rfl hi2

/-- What point `t` writes back is block `t` of the attention of every head. -/
theorem flushed1 (c : Dev nD) (t : Fin cfg1.N) :
    (dat1 V c).flushed 3 t = ((cfg1.win 3).blk t).view.read (Elt Ideal)
      (Cert.Mha.att (V c main_v15) (V c main_v18) (V c main_v21)) := by
  show (cfg1.win 3).cut (grid1.coords t) ((dat1 V c).after 3 t) = _
  rw [after1_3]
  unfold out1_3
  rw [View.canon_unit_zero zeroOffsets3]
  simp only [View.ld_unit_zero (S := S1x512x64) zeroOffsets3, View.ld_unit_zero (S := S1x2048x64) zeroOffsets3]
  obtain ⟨q0, q1, q2, k0, k1, k2, v0, v1, v2, o0, o1, o2⟩ := blockIndex1 t
  funext j
  have hj0 : (j 0).val < 1 := (j 0).isLt
  refine att_block (V c main_v15) (V c main_v18) (V c main_v21) (iblk1 V c 0 t) (iblk1 V c 1 t) (iblk1 V c 2 t)
    (t.val / 4) (t.val % 4) ?_ ?_ ?_ j (((cfg1.win 3).blk t).view.emb j) ?_ ?_ ?_
  · intro p e i hi0 hi1 hi2
    show V c main_v15 (((cfg1.win 0).blk t).view.emb (ix3 (0 : Fin 1) p e)) = V c main_v15 i
    refine congrArg _ (funext fun a => Fin.ext ?_)
    match a with
    | ⟨0, _⟩ => show win1_0.index t (0 : Fin 3) * 1 + 1 * 0 = (i 0).val; rw [q0, hi0]; omega
    | ⟨1, _⟩ => show win1_0.index t (1 : Fin 3) * 512 + 1 * p.val = (i 1).val; rw [q1, hi1]; omega
    | ⟨2, _⟩ => show win1_0.index t (2 : Fin 3) * 64 + 1 * e.val = (i 2).val; rw [q2, hi2]; omega
  · intro k e i hi0 hi1 hi2
    show V c main_v18 (((cfg1.win 1).blk t).view.emb (ix3 (0 : Fin 1) k e)) = V c main_v18 i
    refine congrArg _ (funext fun a => Fin.ext ?_)
    match a with
    | ⟨0, _⟩ => show win1_1.index t (0 : Fin 3) * 1 + 1 * 0 = (i 0).val; rw [k0, hi0]; omega
    | ⟨1, _⟩ => show win1_1.index t (1 : Fin 3) * 2048 + 1 * k.val = (i 1).val; rw [k1, hi1]; omega
    | ⟨2, _⟩ => show win1_1.index t (2 : Fin 3) * 64 + 1 * e.val = (i 2).val; rw [k2, hi2]; omega
  · intro k e i hi0 hi1 hi2
    show V c main_v21 (((cfg1.win 2).blk t).view.emb (ix3 (0 : Fin 1) k e)) = V c main_v21 i
    refine congrArg _ (funext fun a => Fin.ext ?_)
    match a with
    | ⟨0, _⟩ => show win1_2.index t (0 : Fin 3) * 1 + 1 * 0 = (i 0).val; rw [v0, hi0]; omega
    | ⟨1, _⟩ => show win1_2.index t (1 : Fin 3) * 2048 + 1 * k.val = (i 1).val; rw [v1, hi1]; omega
    | ⟨2, _⟩ => show win1_2.index t (2 : Fin 3) * 64 + 1 * e.val = (i 2).val; rw [v2, hi2]; omega
  · show win1_3.index t (0 : Fin 3) * 1 + 1 * (j 0).val = t.val / 4; rw [o0]; omega
  · show win1_3.index t (1 : Fin 3) * 512 + 1 * (j 1).val = t.val % 4 * 512 + (j 1).val; rw [o1]; omega
  · show win1_3.index t (2 : Fin 3) * 64 + 1 * (j 2).val = (j 2).val; rw [o2]; omega

/-- An index of the result lies in point `t`'s block when each coordinate lies in the block's range on its axis. -/
theorem mem_block1 (t : Fin cfg1.N) (i : S64x2048x64.Idx) :
    i ∈ ((cfg1.win 3).blk t).view.set ↔ ∀ a : Fin 3, win1_3.index t a * S1x512x64.size a ≤ (i a).val
      ∧ (i a).val < win1_3.index t a * S1x512x64.size a + S1x512x64.size a := by
  show i ∈ ((View.whole main_v22).slice (win1_3.rect t)).set ↔ _
  rw [View.set_slice_whole, Rect.mem_set_unit]
  exact Iff.rfl

/-- Entry `(h, r, d)` lies in the block of point `4 h + r / 512`. -/
theorem cover1 (i : S64x2048x64.Idx) :
    ∃ t : Fin cfg1.N, (cfg1.win 3).flush t = true ∧ i ∈ ((cfg1.win 3).blk t).view.set := by
  have hN : cfg1.N = 256 := N_1
  have hi0 : (i 0).val < 64 := (i 0).isLt
  have hi1 : (i 1).val < 2048 := (i 1).isLt
  have hi2 : (i 2).val < 64 := (i 2).isLt
  have ht : (i 0).val * 4 + (i 1).val / 512 < cfg1.N := by rw [hN]; omega
  obtain ⟨_, _, _, _, _, _, _, _, _, o0, o1, o2⟩ := blockIndex1 ⟨(i 0).val * 4 + (i 1).val / 512, ht⟩
  refine ⟨⟨(i 0).val * 4 + (i 1).val / 512, ht⟩, flush1_3 _, ?_⟩
  rw [mem_block1]
  intro a
  match a with
  | ⟨0, _⟩ =>
    show win1_3.index ⟨(i 0).val * 4 + (i 1).val / 512, ht⟩ (0 : Fin 3) * 1 ≤ (i 0).val
      ∧ (i 0).val < win1_3.index ⟨(i 0).val * 4 + (i 1).val / 512, ht⟩ (0 : Fin 3) * 1 + 1
    rw [o0]; show ((i 0).val * 4 + (i 1).val / 512) / 4 * 1 ≤ (i 0).val ∧ (i 0).val < ((i 0).val * 4 + (i 1).val / 512) / 4 * 1 + 1; omega
  | ⟨1, _⟩ =>
    show win1_3.index ⟨(i 0).val * 4 + (i 1).val / 512, ht⟩ (1 : Fin 3) * 512 ≤ (i 1).val
      ∧ (i 1).val < win1_3.index ⟨(i 0).val * 4 + (i 1).val / 512, ht⟩ (1 : Fin 3) * 512 + 512
    rw [o1]; show ((i 0).val * 4 + (i 1).val / 512) % 4 * 512 ≤ (i 1).val ∧ (i 1).val < ((i 0).val * 4 + (i 1).val / 512) % 4 * 512 + 512; omega
  | ⟨2, _⟩ =>
    show win1_3.index ⟨(i 0).val * 4 + (i 1).val / 512, ht⟩ (2 : Fin 3) * 64 ≤ (i 2).val
      ∧ (i 2).val < win1_3.index ⟨(i 0).val * 4 + (i 1).val / 512, ht⟩ (2 : Fin 3) * 64 + 64
    rw [o2]; omega

/-- After the kernel the result array is the attention of every head of its three inputs. -/
theorem att_array (c : Dev nD) :
    (dat1 V c).arrAt 3 cfg1.N = Cert.Mha.att (V c main_v15) (V c main_v18) (V c main_v21) :=
  (dat1 V c).arrAt_eq_of_cover 3 (Cert.Mha.att (V c main_v15) (V c main_v18) (V c main_v21))
    (fun t _ => flushed1 V c t) (cover1)

end Cert.KernelIdeal.Hand

end
-- ==== Proof.KernelOutProj.lean ====
/-
  The output projection's kernel, from blocks to the whole array.

  The kernel visits 16 grid points; point `t` reads rows `512 t … 512 t + 511` of its input, the whole weight and the whole
  bias row, and writes back rows `512 t … 512 t + 511` of the result. What it writes at `(p, q)` of its block is the inner
  product of input row `512 t + p` with weight column `q` plus bias entry `q`, which is entry `(512 t + p, q)` of the
  projection of ALL rows. Row `r` of the result lies in the block of point `r / 512`, so the blocks cover the array and
  the array ends holding the projection of all rows.
-/
import proofs.«100730_j73830487818494_2_alg».proof.Proof.Gen.KernelIdeal.Frame
import proofs.«100730_j73830487818494_2_alg».proof.Proof.Spec
import proofs.«100730_j73830487818494_2_alg».proof.Proof.KernelPay
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

-- the buffer contents the kernel finds when it starts: a parameter of everything below
variable (V : (c : Dev nD) → (b : Ref sig .tc) → Buf (Elt Ideal) ((c : Thread nD τ).loc b))

theorem zeroOffsets2 : (![0, 0] : Fin 2 → Nat) = fun _ => 0 := funext fun a => by fin_cases a <;> rfl

/-- The block index of every window at every point: the rows' windows move with the point, the weight and bias stay. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What a point stores at `y` of its block is the projection of all rows at the array index `i` under `y`, when the
    block of rows it read is rows `512 T …` of `X` and it read the whole weight and bias. -/
theorem outProj_block (X : Cert.Mha.SRows.Idx → EReal) (Wt : Cert.Mha.SW.Idx → EReal) (b : Cert.Mha.SRow1.Idx → EReal)
    (x0 : Vec Ideal S512x1024 .bf16) (x1 : Vec Ideal S1024x1024 .bf16) (x2 : Vec Ideal S1x1024 .f32) (T : Nat)
    (h0 : ∀ (p : Fin 512) (k : Fin 1024) (i : Cert.Mha.SRows.Idx), (i 0).val = T * 512 + p.val → (i 1).val = k.val → x0 (ix2 p k) = X i)
    (h1 : ∀ i, x1 i = Wt i) (h2 : ∀ i, x2 i = b i)
    (y : S512x1024.Idx) (i : Cert.Mha.SRows.Idx) (hi0 : (i 0).val = T * 512 + (y 0).val) (hi1 : (i 1).val = (y 1).val) :
    k2_pay1 x0 x1 x2 y = Cert.Mha.lin X Wt b i := by
  obtain ⟨p, q, rfl⟩ : ∃ (p : Fin 512) (q : Fin 1024), y = ix2 p q := ⟨y 0, y 1, eq_ix2 y⟩
  rw [k2_pay1_apply]
  show _ = (∑ k : Fin 1024, X (ix2 (i 0) k) * Wt (ix2 k (i 1))) + b (ix2 (0 : Fin 1) (i 1))
  have eq : (i 1 : Fin 1024) = q := Fin.ext hi1
  rw [eq]
  refine congrArg₂ (· + ·) (Finset.sum_congr rfl fun k _ => ?_) (h2 _)
  rw [h0 p k (ix2 (i 0) k) hi0 rfl, h1]

/-- What point `t` writes back is block `t` of the projection of all rows. -/
theorem flushed2 (c : Dev nD) (t : Fin cfg2.N) :
    (dat2 V c).flushed 3 t = ((cfg2.win 3).blk t).view.read (Elt Ideal)
      (Cert.Mha.lin (V c main_v25) (V c main_v8) (V c main_v26)) := by
  show (cfg2.win 3).cut (grid2.coords t) ((dat2 V c).after 3 t) = _
  rw [after2_3]
  unfold out2_3
  rw [View.canon_unit_zero zeroOffsets2]
  simp only [View.ld_unit_zero (S := S512x1024) zeroOffsets2, View.ld_unit_zero (S := S1024x1024) zeroOffsets2,
    View.ld_unit_zero (S := S1x1024) zeroOffsets2]
  obtain ⟨e00, e01, e10, e11, e20, e21, e30, e31⟩ := blockIndex2 t
  funext j
  refine outProj_block (V c main_v25) (V c main_v8) (V c main_v26) (iblk2 V c 0 t) (iblk2 V c 1 t) (iblk2 V c 2 t) t.val
    ?_ ?_ ?_ j (((cfg2.win 3).blk t).view.emb j) ?_ ?_
  · intro p k i hi0 hi1
    show V c main_v25 (((cfg2.win 0).blk t).view.emb (ix2 p k)) = V c main_v25 i
    refine congrArg _ (funext fun a => Fin.ext ?_)
    match a with
    | ⟨0, _⟩ => show win2_0.index t (0 : Fin 2) * 512 + 1 * p.val = (i 0).val; rw [e00, hi0]; omega
    | ⟨1, _⟩ => show win2_0.index t (1 : Fin 2) * 1024 + 1 * k.val = (i 1).val; rw [e01, hi1]; omega
  · intro i
    show V c main_v8 (((cfg2.win 1).blk t).view.emb i) = V c main_v8 i
    refine congrArg _ (funext fun a => Fin.ext ?_)
    match a with
    | ⟨0, _⟩ => show win2_1.index t (0 : Fin 2) * 1024 + 1 * (i 0).val = (i 0).val; rw [e10]; omega
    | ⟨1, _⟩ => show win2_1.index t (1 : Fin 2) * 1024 + 1 * (i 1).val = (i 1).val; rw [e11]; omega
  · intro i
    show V c main_v26 (((cfg2.win 2).blk t).view.emb i) = V c main_v26 i
    refine congrArg _ (funext fun a => Fin.ext ?_)
    match a with
    | ⟨0, _⟩ => show win2_2.index t (0 : Fin 2) * 1 + 1 * (i 0).val = (i 0).val; rw [e20]; omega
    | ⟨1, _⟩ => show win2_2.index t (1 : Fin 2) * 1024 + 1 * (i 1).val = (i 1).val; rw [e21]; omega
  · show win2_3.index t (0 : Fin 2) * 512 + 1 * (j 0).val = t.val * 512 + (j 0).val; rw [e30]; omega
  · show win2_3.index t (1 : Fin 2) * 1024 + 1 * (j 1).val = (j 1).val; rw [e31]; omega

/-- An index of the result lies in point `t`'s block when each coordinate lies in the block's range on its axis. -/
theorem mem_block2 (t : Fin cfg2.N) (i : S8192x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v27).slice (win2_3.rect t)).set ↔ _
  rw [View.set_slice_whole, Rect.mem_set_unit]
  exact Iff.rfl

/-- Row `r` lies in the block of point `r / 512`. -/
theorem cover2 (i : S8192x1024.Idx) :
    ∃ t : Fin cfg2.N, (cfg2.win 3).flush t = true ∧ i ∈ ((cfg2.win 3).blk t).view.set := by
  have hN : cfg2.N = 16 := N_2
  have hi0 : (i 0).val < 8192 := (i 0).isLt
  have hi1 : (i 1).val < 1024 := (i 1).isLt
  have ht : (i 0).val / 512 < cfg2.N := by rw [hN]; omega
  obtain ⟨_, _, _, _, _, _, e30, e31⟩ := blockIndex2 ⟨(i 0).val / 512, ht⟩
  refine ⟨⟨(i 0).val / 512, ht⟩, flush2_3 _, ?_⟩
  rw [mem_block2]
  intro a
  match a with
  | ⟨0, _⟩ =>
    show win2_3.index ⟨(i 0).val / 512, ht⟩ (0 : Fin 2) * 512 ≤ (i 0).val
      ∧ (i 0).val < win2_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win2_3.index ⟨(i 0).val / 512, ht⟩ (1 : Fin 2) * 1024 ≤ (i 1).val
      ∧ (i 1).val < win2_3.index ⟨(i 0).val / 512, ht⟩ (1 : Fin 2) * 1024 + 1024
    rw [e31]; omega

/-- After the kernel the result array is the projection of all rows of its input by its weight and bias. -/
theorem outProj_array (c : Dev nD) :
    (dat2 V c).arrAt 3 cfg2.N = Cert.Mha.lin (V c main_v25) (V c main_v8) (V c main_v26) :=
  (dat2 V c).arrAt_eq_of_cover 3 (Cert.Mha.lin (V c main_v25) (V c main_v8) (V c main_v26))
    (fun t _ => flushed2 V c t) (cover2)

end Cert.KernelIdeal.Hand

end
-- ==== Proof.KernelValue.lean ====
/-
  The kernel program's result is the specification of the launched arguments.

  Walking the seven stretches backwards from the result buffer: the last reshape views the output projection's array as
  `[4, 2048, 1024]`; that array is the projection, by the transposed output weight and the output bias, of the attention
  array regrouped back from heads to rows; the attention array is the attention of the three projected arrays regrouped
  by head; and each of those is the projection of the flattened input rows by its own transposed weight and bias. Rounding
  a transposed weight to a shorter float format changes nothing on the extended reals.
-/
import proofs.«100730_j73830487818494_2_alg».proof.Proof.Gen.KernelIdeal.Frame
import proofs.«100730_j73830487818494_2_alg».proof.Proof.Spec
import proofs.«100730_j73830487818494_2_alg».proof.Proof.KernelHost
import proofs.«100730_j73830487818494_2_alg».proof.Proof.KernelQKV
import proofs.«100730_j73830487818494_2_alg».proof.Proof.KernelAttn
import proofs.«100730_j73830487818494_2_alg».proof.Proof.KernelOutProj

set_option maxRecDepth 16384

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The three projected arrays as the first kernel leaves them. -/
theorem q_rows (c : Dev nD) : W2 m ρ c (Proc.devRef .tc main_v12_0)
    = Cert.Mha.lin (W1 m ρ c (Proc.devRef .tc main_v0)) (W1 m ρ c (Proc.devRef .tc main_v2)) (W1 m ρ c (Proc.devRef .tc main_v9)) :=
  (W2_arr m ρ c 7).trans (qkv_array_7 (V1 m ρ) c)
theorem k_rows (c : Dev nD) : W2 m ρ c (Proc.devRef .tc main_v12_1)
    = Cert.Mha.lin (W1 m ρ c (Proc.devRef .tc main_v0)) (W1 m ρ c (Proc.devRef .tc main_v4)) (W1 m ρ c (Proc.devRef .tc main_v10)) :=
  (W2_arr m ρ c 8).trans (qkv_array_8 (V1 m ρ) c)
theorem v_rows (c : Dev nD) : W2 m ρ c (Proc.devRef .tc main_v12_2)
    = Cert.Mha.lin (W1 m ρ c (Proc.devRef .tc main_v0)) (W1 m ρ c (Proc.devRef .tc main_v6)) (W1 m ρ c (Proc.devRef .tc main_v11)) :=
  (W2_arr m ρ c 9).trans (qkv_array_9 (V1 m ρ) c)

/-- The attention array as the second kernel leaves it. -/
theorem att_heads (c : Dev nD) : W4 m ρ c (Proc.devRef .tc main_v22)
    = Cert.Mha.att (W3 m ρ c (Proc.devRef .tc main_v15)) (W3 m ρ c (Proc.devRef .tc main_v18)) (W3 m ρ c (Proc.devRef .tc main_v21)) :=
  (W4_arr m ρ c 3).trans (att_array (V3 m ρ) c)

/-- The output projection's array as the third kernel leaves it. -/
theorem out_rows (c : Dev nD) : W6 m ρ c (Proc.devRef .tc main_v27)
    = Cert.Mha.lin (W5 m ρ c (Proc.devRef .tc main_v25)) (W5 m ρ c (Proc.devRef .tc main_v8)) (W5 m ρ c (Proc.devRef .tc main_v26)) :=
  (W6_arr m ρ c 3).trans (outProj_array (V5 m ρ) c)

/-- The result buffer after the program is multi-head attention of the launched arguments. -/
theorem result_value (c : Dev nD) : W7 m ρ c (Proc.devRef .tc main_v28)
    = Cert.Mha.mha (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) := by
  rw [result_eq, out_rows, unheads_eq, wo_kept, wo_eq, bo_eq, att_heads, qheads_eq, kheads_eq, vheads_eq, q_rows, k_rows, v_rows,
    rows_eq, wq_eq, wk_eq, wv_eq, bq_eq, bk_eq, bv_eq]
  rfl

end Cert.KernelIdeal.Hand

end
-- ==== Proof.RefLin.lean ====
/-
  The reference's projections and regroupings, read as the specification's.

  A projection of the reference is a contraction of the rows of a `[4, 2048, 1024]` array with the rows of a weight,
  plus the bias spread over every row. Viewed as `[8192, 1024]` it is the specification's `lin` of the array viewed
  the same way, with the weight transposed and the bias a one-row matrix: both read, at row `r` and column `e`, the sum
  over `k` of the array at `(r / 2048, r % 2048, k)` times the weight at `(e, k)`, plus the bias at `e`.
  Two shape casts in a row are one shape cast, so the regroupings by head on both sides are the same function of
  the projection: only the positions in row-major order matter.
-/
import proofs.«100730_j73830487818494_2_alg».proof.Proof.Gen.ReferenceIdeal.Read
import proofs.«100730_j73830487818494_2_alg».proof.Proof.Spec
import Idealize.ShloMosaic.Lib.ValueLayout

noncomputable section

namespace Cert.ReferenceIdeal.RefValue

open Idealize.ShloMosaic Idealize.ShloMosaic.ValueIdx Cert.ReferenceIdeal Cert.ReferenceIdeal.Read Cert.Mha

/-! ### Shape casts -/

/-- Two shape casts in a row are one. -/
theorem shapeCast_comp {s t u : Shape} {α : Type} (v : s.Idx → α) (h : s.ShapeCasts t) (h' : t.ShapeCasts u)
    (h'' : s.ShapeCasts u) : shapeCast u (shapeCast t v h) h' = shapeCast u v h'' :=
  funext fun i => congrArg v (Shape.reshapeEquiv_reshapeEquiv _ _ i)

/-- A `[4, 2048, 1024]` array viewed as `[8192, 1024]` reads, at `(r, k)`, the array at `(r / 2048, r % 2048, k)`. -/
theorem rows_apply {α : Type} (y : SX.Idx → α) (h : SX.ShapeCasts SRows) (r : Fin 8192) (k : Fin 1024) :
    shapeCast SRows y h (ix2 r k)
      = y (ix3 (⟨r.val / 2048, by have := r.isLt; omega⟩ : Fin 4) (⟨r.val % 2048, by omega⟩ : Fin 2048) k) :=
  shapeCast_apply y h _ _ (by
    rw [Shape.rowMajor_val_three, Shape.rowMajor_val_two]
    show (r.val / 2048 * 2048 + r.val % 2048) * 1024 + k.val = r.val * 1024 + k.val
    omega)

/-- A `[4, 16, 2048, 64]` array viewed as `[64, 2048, 64]` reads, at `(g, q, d)`, the array at `(g / 16, g % 16, q, d)`. -/
theorem heads_apply {α : Type} (A : SHeads4.Idx → α) (h : SHeads4.ShapeCasts SHeads) (g : Fin 64) (q : Fin 2048)
    (d : Fin 64) :
    shapeCast SHeads A h (ix3 g q d)
      = A (ix4 (⟨g.val / 16, by have := g.isLt; omega⟩ : Fin 4) (⟨g.val % 16, by omega⟩ : Fin 16) q d) :=
  shapeCast_apply A h _ _ (by
    rw [Shape.rowMajor_val_four, Shape.rowMajor_val_three]
    show ((g.val / 16 * 16 + g.val % 16) * 2048 + q.val) * 64 + d.val = (g.val * 2048 + q.val) * 64 + d.val
    omega)

/-! ### A projection -/

/-- The specification's projection of the rows of `y` is the reference's `y · Wᵀ + b`, viewed as `[8192, 1024]`. -/
theorem lin_rows (y : SX.Idx → EReal) (W : SW.Idx → EReal) (b : SVec.Idx → EReal) :
    lin (shapeCast SRows y (by decide)) (weightT W) (biasRow b)
      = shapeCast SRows (val_main_v3 (F := Ideal) y W b) (by decide) := by
  funext j
  obtain ⟨r, e, rfl⟩ : ∃ r e, j = ix2 r e := ⟨j 0, j 1, eq_ix2 j⟩
  rw [rows_apply, val_main_v3_apply, val_main_v0_apply, val_main_v2_apply, val_main_v1_apply]
  rw [Ideal.addf_def]
  show (∑ k : Fin 1024, shapeCast SRows y _ (ix2 r k) * weightT W (ix2 k e)) + biasRow b (ix2 (0 : Fin 1) e) = _
  refine congrArg₂ (· + ·) (Finset.sum_congr rfl fun k _ => ?_) ?_
  · rw [rows_apply]
    unfold weightT
    rw [transpose_ix2_apply]
    refine congrArg₂ (· * ·) (congrArg y (funext fun a => ?_)) (congrArg W (funext fun a => ?_))
    · match a with
      | ⟨0, _⟩ => rfl
      | ⟨1, _⟩ => rfl
      | ⟨2, _⟩ => rfl
    · match a with
      | ⟨0, _⟩ => rfl
      | ⟨1, _⟩ => rfl
  · unfold biasRow
    rw [shapeCast_a_1a_apply]
    refine congrArg b (funext fun a => ?_)
    match a with
    | ⟨0, _⟩ => rfl

/-- The same, viewed again as `[4, 2048, 1024]`, of an array given in any shape with as many entries. -/
theorem lin_cast {s : Shape} (T : s.Idx → EReal) (hr : s.ShapeCasts SRows) (hx : s.ShapeCasts SX) (W : SW.Idx → EReal)
    (b : SVec.Idx → EReal) :
    shapeCast SX (lin (shapeCast SRows T hr) (weightT W) (biasRow b)) (by decide)
      = val_main_v3 (F := Ideal) (shapeCast SX T hx) W b := by
  rw [← shapeCast_comp T hx (by decide) hr, lin_rows, shapeCast_shapeCast]

/-! ### Regrouping by head -/

/-- The specification's projection regrouped by head is the reference's projection, split into heads and transposed,
    viewed as `[64, 2048, 64]`. -/
theorem proj_eq (x : SX.Idx → EReal) (W : SW.Idx → EReal) (b : SVec.Idx → EReal) :
    proj x W b = shapeCast SHeads (val_main_v5 (F := Ideal) x W b) (by decide) := by
  unfold proj heads
  rw [lin_rows, shapeCast_comp _ _ _ (by decide)]
  rfl

/-- Regrouping back an array given by its `[4, 16, 2048, 64]` form. -/
theorem unheads_cast (Z : SHeads4.Idx → EReal) :
    unheads (shapeCast SHeads Z (by decide))
      = shapeCast SRows (transpose SSplit [0, 2, 1, 3] Z (by decide)) (by decide) := by
  unfold unheads
  rw [shapeCast_shapeCast]

/-! ### The three projections are one function of their weight and bias -/

theorem v11_eq (x0 : SX.Idx → EReal) (x3 : SW.Idx → EReal) (x4 : SVec.Idx → EReal) :
    val_main_v11 (F := Ideal) x0 x3 x4 = val_main_v5 (F := Ideal) x0 x3 x4 := rfl

theorem v17_eq (x0 : SX.Idx → EReal) (x5 : SW.Idx → EReal) (x6 : SVec.Idx → EReal) :
    val_main_v17 (F := Ideal) x0 x5 x6 = val_main_v5 (F := Ideal) x0 x5 x6 := rfl

end Cert.ReferenceIdeal.RefValue

end
-- ==== Proof.LibERealFinite.lean ====
/-
  Finiteness in the extended reals: an extended real is finite when it is neither infinity, that is, when it is
  the image of a real number.  Closure of finiteness under the arithmetic, order and rounding operations, and the
  identities that hold once one operand is known to be finite.
-/
import Mathlib.Tactic
import Idealize.ShloMosaic.PureOps.Ideal

noncomputable section

namespace Cert.Lib.Finite

open Idealize.ShloMosaic

/-- An extended real is finite when it is neither `⊤` nor `⊥`. -/
def Fin' (x : EReal) : Prop := x ≠ ⊤ ∧ x ≠ ⊥

/-- A finite extended real is the image of a real number. -/
theorem Fin'.exists_real {x : EReal} (h : Fin' x) : ∃ r : ℝ, x = (r : EReal) :=
  ⟨x.toReal, (EReal.coe_toReal h.1 h.2).symm⟩

/-- The image of a real number is finite. -/
theorem fin_coe (r : ℝ) : Fin' (r : EReal) := ⟨EReal.coe_ne_top r, EReal.coe_ne_bot r⟩

/-- Finite means: the image of a real number. -/
theorem fin_iff_exists_real {x : EReal} : Fin' x ↔ ∃ r : ℝ, x = (r : EReal) :=
  ⟨Fin'.exists_real, fun ⟨r, h⟩ => h ▸ fin_coe r⟩

/-- Of a real witness, finiteness. -/
theorem fin_of_eq_coe {x : EReal} {r : ℝ} (h : x = (r : EReal)) : Fin' x := h ▸ fin_coe r

theorem fin_zero : Fin' (0 : EReal) := by simpa using fin_coe 0
theorem fin_one : Fin' (1 : EReal) := by simpa using fin_coe 1

/-- The straight-through identity: adding to a finite `a` the difference `b - a` gives `b`, for every extended
    real `b`, the infinities included (`a + (⊤ - a) = ⊤`, `a + (⊥ - a) = ⊥`). -/
theorem add_sub_cancel {a : EReal} (ha : Fin' a) (b : EReal) : a + (b - a) = b := by
  obtain ⟨r, rfl⟩ := ha.exists_real
  induction b using EReal.rec with
  | bot => simp
  | top => simp
  | coe x => norm_cast; ring

/-- The same identity with the difference first. -/
theorem sub_add_cancel {a : EReal} (ha : Fin' a) (b : EReal) : (b - a) + a = b := by
  rw [add_comm]; exact add_sub_cancel ha b

/-! ### Closure -/

theorem fin_add {a b : EReal} (ha : Fin' a) (hb : Fin' b) : Fin' (a + b) := by
  obtain ⟨r, rfl⟩ := ha.exists_real; obtain ⟨t, rfl⟩ := hb.exists_real
  exact fin_of_eq_coe (EReal.coe_add r t).symm

theorem fin_sub {a b : EReal} (ha : Fin' a) (hb : Fin' b) : Fin' (a - b) := by
  obtain ⟨r, rfl⟩ := ha.exists_real; obtain ⟨t, rfl⟩ := hb.exists_real
  exact fin_of_eq_coe (EReal.coe_sub r t).symm

theorem fin_mul {a b : EReal} (ha : Fin' a) (hb : Fin' b) : Fin' (a * b) := by
  obtain ⟨r, rfl⟩ := ha.exists_real; obtain ⟨t, rfl⟩ := hb.exists_real
  exact fin_of_eq_coe (EReal.coe_mul r t).symm

theorem fin_neg {a : EReal} (ha : Fin' a) : Fin' (-a) := by
  obtain ⟨r, rfl⟩ := ha.exists_real
  exact fin_of_eq_coe (EReal.coe_neg r).symm

theorem fin_max {a b : EReal} (ha : Fin' a) (hb : Fin' b) : Fin' (max a b) := by
  rcases max_choice a b with h | h <;> rw [h] <;> assumption

theorem fin_min {a b : EReal} (ha : Fin' a) (hb : Fin' b) : Fin' (min a b) := by
  rcases min_choice a b with h | h <;> rw [h] <;> assumption

/-- Between two finite bounds, finite. -/
theorem fin_of_between {lo hi x : EReal} (hlo : Fin' lo) (hhi : Fin' hi) (h1 : lo ≤ x) (h2 : x ≤ hi) : Fin' x :=
  ⟨fun h => hhi.1 (top_le_iff.mp (h ▸ h2)), fun h => hlo.2 (le_bot_iff.mp (h ▸ h1))⟩

/-- A finite sum of finite terms is finite. -/
theorem fin_sum {ι : Type*} (s : Finset ι) (f : ι → EReal) (h : ∀ i ∈ s, Fin' (f i)) : Fin' (∑ i ∈ s, f i) := by
  classical
  induction s using Finset.induction_on with
  | empty => simpa using fin_zero
  | insert a s ha ih =>
    rw [Finset.sum_insert ha]
    exact fin_add (h a (Finset.mem_insert_self a s)) (ih fun i hi => h i (Finset.mem_insert_of_mem hi))

/-- The sum over a finite type of finite terms is finite. -/
theorem fin_sum_univ {ι : Type*} [Fintype ι] (f : ι → EReal) (h : ∀ i, Fin' (f i)) : Fin' (∑ i, f i) :=
  fin_sum Finset.univ f fun i _ => h i

/-- The sum of the images of reals is the image of the sum. -/
theorem coe_sum {ι : Type*} (s : Finset ι) (g : ι → ℝ) : (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- The exponential of a finite extended real is finite. -/
theorem fin_exp {x : EReal} (hx : Fin' x) : Fin' (Ideal.exp x) := by
  obtain ⟨r, rfl⟩ := hx.exists_real
  exact fin_of_eq_coe (Ideal.exp_coe (r := r))

/-- The exponential of a finite extended real is positive. -/
theorem exp_pos {x : EReal} (hx : Fin' x) : 0 < Ideal.exp x := by
  obtain ⟨r, rfl⟩ := hx.exists_real
  rw [Ideal.exp_coe]; exact_mod_cast Real.exp_pos r

/-- The quotient of two reals, the divisor not zero, is the image of the real quotient. -/
theorem div_coe_coe (r : ℝ) {t : ℝ} (ht : t ≠ 0) : Ideal.div (r : EReal) (t : EReal) = ((r / t : ℝ) : EReal) := by
  rw [Ideal.div_coe ht, ← EReal.coe_mul, mul_one_div]

/-- The quotient of a finite extended real by a finite nonzero one is finite. -/
theorem fin_div {x s : EReal} (hx : Fin' x) (hs : Fin' s) (h0 : s ≠ 0) : Fin' (Ideal.div x s) := by
  obtain ⟨r, rfl⟩ := hx.exists_real; obtain ⟨t, rfl⟩ := hs.exists_real
  have ht : t ≠ 0 := fun h => h0 (by rw [h]; rfl)
  exact fin_of_eq_coe (div_coe_coe r ht)

/-- A rounding to the integers of a finite extended real is finite. -/
theorem fin_liftRound (f : ℝ → ℤ) {x : EReal} (hx : Fin' x) : Fin' (Ideal.liftRound f x) := by
  obtain ⟨r, rfl⟩ := hx.exists_real
  exact fin_of_eq_coe (Ideal.liftRound_coe (r := r) f)

/-! ### The clip bounds -/

/-- The pattern `0x42FE0000` denotes the real `127`. -/
theorem ofBits_127 : Ideal.ofBits .f32 0x42FE0000#32 = ((127 : ℝ) : EReal) := by
  simp [Ideal.ofBits, Ideal.ieee, -EReal.coe_mul]; norm_num

/-- The pattern `0xC2FE0000` denotes the real `-127`. -/
theorem ofBits_neg127 : Ideal.ofBits .f32 0xC2FE0000#32 = ((-127 : ℝ) : EReal) := by
  simp [Ideal.ofBits, Ideal.ieee, -EReal.coe_mul]; norm_num

/-- A value clipped to `[-127, 127]` is finite, whatever it was. -/
theorem fin_clip (y : EReal) :
    Fin' (min (Ideal.ofBits .f32 0x42FE0000#32) (max (Ideal.ofBits .f32 0xC2FE0000#32) y)) := by
  rw [ofBits_127, ofBits_neg127]
  refine fin_of_between (fin_coe (-127)) (fin_coe 127) (le_min ?_ (le_max_left _ _)) (min_le_left _ _)
  exact_mod_cast (by norm_num : (-127 : ℝ) ≤ 127)

/-! ### The quantization scale -/

/-- The pattern `0x322BCC77` denotes a positive real (`11258999 · 2⁻⁵⁰`, about `1e-8`). -/
theorem ofBits_eps : Ideal.ofBits .f32 0x322BCC77#32 = ((11258999 / 2 ^ 50 : ℝ) : EReal) := by
  simp [Ideal.ofBits, Ideal.ieee, -EReal.coe_mul]; norm_num

/-- That real is positive. -/
theorem ofBits_eps_pos : (0 : EReal) < Ideal.ofBits .f32 0x322BCC77#32 := by
  rw [ofBits_eps]; exact_mod_cast (by positivity : (0 : ℝ) < 11258999 / 2 ^ 50)

/-- The scale `max (M / 127) ε` of a finite `M` is finite. -/
theorem fin_scale {M : EReal} (hM : Fin' M) :
    Fin' (max (Ideal.div M (Ideal.ofBits .f32 0x42FE0000#32)) (Ideal.ofBits .f32 0x322BCC77#32)) := by
  refine fin_max (fin_div hM (fin_of_eq_coe ofBits_127) ?_) (fin_of_eq_coe ofBits_eps)
  rw [ofBits_127]; exact_mod_cast (by norm_num : (127 : ℝ) ≠ 0)

/-- The scale `max (M / 127) ε` is positive, whatever `M` is. -/
theorem scale_pos (M : EReal) :
    0 < max (Ideal.div M (Ideal.ofBits .f32 0x42FE0000#32)) (Ideal.ofBits .f32 0x322BCC77#32) :=
  lt_max_of_lt_right ofBits_eps_pos

/-- A positive extended real is not zero. -/
theorem scale_ne_zero (M : EReal) :
    max (Ideal.div M (Ideal.ofBits .f32 0x42FE0000#32)) (Ideal.ofBits .f32 0x322BCC77#32) ≠ 0 :=
  (scale_pos M).ne'

/-! ### Folding the maximum over a finite set -/

/-- Folding `max` from `⊥` is the supremum. -/
theorem fold_max_eq_sup {ι : Type*} (s : Finset ι) (f : ι → EReal) : s.fold max ⊥ f = s.sup f := by
  classical
  induction s using Finset.induction_on with
  | empty => simp
  | insert a s ha ih => rw [Finset.fold_insert ha, Finset.sup_insert, ih]

/-- Every entry is below the folded maximum. -/
theorem le_fold_max {ι : Type*} {s : Finset ι} (f : ι → EReal) {i : ι} (hi : i ∈ s) : f i ≤ s.fold max ⊥ f := by
  rw [fold_max_eq_sup]; exact Finset.le_sup hi

/-- A bound of every entry bounds the folded maximum. -/
theorem fold_max_le {ι : Type*} {s : Finset ι} {f : ι → EReal} {c : EReal} (h : ∀ i ∈ s, f i ≤ c) :
    s.fold max ⊥ f ≤ c := by
  rw [fold_max_eq_sup]; exact Finset.sup_le h

/-- A bound of every entry that one entry attains is the folded maximum. -/
theorem fold_max_eq_of_le_of_mem {ι : Type*} {s : Finset ι} {f : ι → EReal} {c : EReal} (h : ∀ i ∈ s, f i ≤ c)
    {i : ι} (hi : i ∈ s) (hc : f i = c) : s.fold max ⊥ f = c :=
  le_antisymm (fold_max_le h) (hc ▸ le_fold_max f hi)

/-- Over a nonempty finite set the folded maximum is one of the entries. -/
theorem exists_fold_max_eq {ι : Type*} {s : Finset ι} (hs : s.Nonempty) (f : ι → EReal) :
    ∃ i ∈ s, s.fold max ⊥ f = f i := by
  rw [fold_max_eq_sup]; exact Finset.exists_mem_eq_sup s hs f

/-- Over a nonempty finite type the folded maximum of finite entries is finite. -/
theorem fin_fold_max {ι : Type*} [Fintype ι] [Nonempty ι] (f : ι → EReal) (h : ∀ i, Fin' (f i)) :
    Fin' (Finset.univ.fold max ⊥ f) := by
  obtain ⟨i, -, hi⟩ := exists_fold_max_eq Finset.univ_nonempty f
  rw [hi]; exact h i

/-- The folded maximum of the images of reals is the image of their supremum. -/
theorem fold_max_coe {ι : Type*} {s : Finset ι} (hs : s.Nonempty) (g : ι → ℝ) :
    s.fold max ⊥ (fun i => (g i : EReal)) = ((s.sup' hs g : ℝ) : EReal) := by
  obtain ⟨i, hi, h⟩ := Finset.exists_mem_eq_sup' hs g
  refine fold_max_eq_of_le_of_mem (fun j hj => ?_) hi (by rw [h])
  exact_mod_cast Finset.le_sup' g hj

/-- Re-indexing along a bijection does not change the folded maximum. -/
theorem fold_max_equiv {ι κ : Type*} [Fintype ι] [Fintype κ] (e : ι ≃ κ) (b : EReal) (f : κ → EReal) :
    Finset.univ.fold max b (f ∘ e) = Finset.univ.fold max b f := by
  have h := Finset.fold_map (op := max) (b := b) (g := e.toEmbedding) (f := f) (s := Finset.univ)
  rw [Finset.map_univ_equiv] at h
  exact h.symm

end Cert.Lib.Finite

end
-- ==== Proof.AttnLaw.lean ====
/-
  The laws of the extended reals that join the two arrangements of softmax attention, and finiteness of every
  intermediate array when the inputs are finite.

  * Dividing by `√64` is multiplying by `1/8`, at every extended real.
  * A maximum folded from minus infinity is not changed by one more `max` with minus infinity, and over finite entries it
    is finite.
  * With finite scores `s`, a finite shift `M` and finite values `v`, the weights `p k = exp (s k − M)` are positive reals,
    their sum `L` is a positive real, and `∑ k, (p k / L) · v k = (∑ k, p k · v k) / L`: division by a nonzero real
    distributes over a finite sum of reals.
  * Sums of products of finite numbers are finite, so projections and scores of finite inputs are finite; a regrouping
    of an array only moves its entries.
-/
import proofs.«100730_j73830487818494_2_alg».proof.Proof.Spec
import proofs.«100730_j73830487818494_2_alg».proof.Proof.LibERealFinite

noncomputable section

namespace Cert.Mha

open Idealize.ShloMosaic Idealize.ShloMosaic.ValueIdx Cert.Lib.Finite

/-- The word `0xFF800000` is minus infinity. -/
theorem ofBits_negInf : Ideal.ofBits .f32 0xFF800000#32 = ⊥ := by
  simp [Ideal.ofBits, Ideal.ieee]

/-- The word `0x00000000` is zero. -/
theorem ofBits_zero : Ideal.ofBits .f32 0x00000000#32 = 0 := by
  simp [Ideal.ofBits, Ideal.ieee]

/-- The word `0x3E000000` is the real `1/8`. -/
theorem ofBits_eighth : Ideal.ofBits .f32 0x3E000000#32 = ((1 / 8 : ℝ) : EReal) := by
  simp [Ideal.ofBits, Ideal.ieee, -EReal.coe_mul]; norm_num

/-- The word `0x42800000` is the real `64`. -/
theorem ofBits_sixtyFour : Ideal.ofBits .f32 0x42800000#32 = ((64 : ℝ) : EReal) := by
  simp [Ideal.ofBits, Ideal.ieee, -EReal.coe_mul]; norm_num

/-- The square root of `64` is `8`. -/
theorem sqrt_sixtyFour : Real.sqrt 64 = 8 := by
  rw [show (64 : ℝ) = 8 * 8 by norm_num]
  exact Real.sqrt_mul_self (by norm_num)

/-- Multiplying by `1/8` (the word `0x3E000000`) is dividing by the square root of `64` (the word `0x42800000`), at every
    extended real. -/
theorem scale_eq_div (x : EReal) :
    x * Ideal.ofBits .f32 0x3E000000#32 = Ideal.div x (Ideal.sqrt (Ideal.ofBits .f32 0x42800000#32)) := by
  rw [ofBits_eighth, ofBits_sixtyFour, Ideal.sqrt_coe, if_neg (by norm_num), sqrt_sixtyFour,
    Ideal.div_coe (by norm_num : (8 : ℝ) ≠ 0)]

/-- One more `max` with minus infinity does not change a maximum folded from minus infinity. -/
theorem max_rowMax (s : Fin 2048 → EReal) : max (Ideal.ofBits .f32 0xFF800000#32) (rowMax s) = rowMax s := by
  rw [ofBits_negInf]
  exact max_eq_right bot_le

/-- The maximum of finite entries is finite. -/
theorem fin_rowMax (s : Fin 2048 → EReal) (hs : ∀ k, Fin' (s k)) : Fin' (rowMax s) := by
  unfold rowMax
  rw [ofBits_negInf]
  exact fin_fold_max s hs

/-- Normalizing the weights before the weighted sum, or the weighted sum once afterwards, is the same number when scores,
    shift and values are finite (the zero word added to the normalizer is the host sum's initial value). -/
theorem softmax_sum_exchange {ι : Type} [Fintype ι] [Nonempty ι] (s v : ι → EReal) (M : EReal)
    (hs : ∀ k, Fin' (s k)) (hM : Fin' M) (hv : ∀ k, Fin' (v k)) :
    (∑ k, Ideal.div (Ideal.exp (s k - M)) (Ideal.ofBits .f32 0x00000000#32 + ∑ j, Ideal.exp (s j - M)) * v k)
      = Ideal.div (∑ k, Ideal.exp (s k - M) * v k) (∑ k, Ideal.exp (s k - M)) := by
  -- real witnesses of the shift, the scores and the values
  obtain ⟨m, rfl⟩ := hM.exists_real
  choose sr hsr using fun k => (hs k).exists_real
  choose vr hvr using fun k => (hv k).exists_real
  -- every weight is the image of a positive real
  have hexp : ∀ k, Ideal.exp (s k - (m : EReal)) = ((Real.exp (sr k - m) : ℝ) : EReal) := by
    intro k
    rw [hsr k, ← EReal.coe_sub, Ideal.exp_coe]
  -- the normalizer is the image of a positive real
  have hLpos : 0 < ∑ j, Real.exp (sr j - m) :=
    Finset.sum_pos (fun j _ => Real.exp_pos _) Finset.univ_nonempty
  have hL : (∑ j, Ideal.exp (s j - (m : EReal))) = ((∑ j, Real.exp (sr j - m) : ℝ) : EReal) := by
    rw [← coe_sum]
    exact Finset.sum_congr rfl fun j _ => hexp j
  rw [ofBits_zero, zero_add, hL]
  -- the left side, term by term
  have hleft : ∀ k, Ideal.div (Ideal.exp (s k - (m : EReal))) ((∑ j, Real.exp (sr j - m) : ℝ) : EReal) * v k
      = ((Real.exp (sr k - m) / (∑ j, Real.exp (sr j - m)) * vr k : ℝ) : EReal) := by
    intro k
    rw [hexp k, hvr k, div_coe_coe _ hLpos.ne', ← EReal.coe_mul]
  -- the right side's weighted sum
  have hright : (∑ k, Ideal.exp (s k - (m : EReal)) * v k) = ((∑ k, Real.exp (sr k - m) * vr k : ℝ) : EReal) := by
    rw [← coe_sum]
    refine Finset.sum_congr rfl fun k _ => ?_
    rw [hexp k, hvr k, ← EReal.coe_mul]
  rw [Finset.sum_congr rfl fun k _ => hleft k, hright, coe_sum, div_coe_coe _ hLpos.ne']
  -- in the reals: division by the normalizer distributes over the sum
  congr 1
  rw [Finset.sum_div]
  refine Finset.sum_congr rfl fun k _ => ?_
  ring

/-- An entry of a projection of finite rows by a finite weight and bias is finite. -/
theorem fin_linAt (X : SRows.Idx → EReal) (Wt : SW.Idx → EReal) (b : SRow1.Idx → EReal)
    (hX : ∀ i, Fin' (X i)) (hW : ∀ i, Fin' (Wt i)) (hb : ∀ i, Fin' (b i)) (r : Fin 8192) (e : Fin 1024) :
    Fin' (linAt X Wt b r e) := by
  unfold linAt
  exact fin_add (fin_sum_univ _ fun k => fin_mul (hX _) (hW _)) (hb _)

/-- A regrouping by head only moves entries: it keeps finiteness. -/
theorem fin_heads (Y : SRows.Idx → EReal) (hY : ∀ i, Fin' (Y i)) (j : SHeads.Idx) : Fin' (heads Y j) := by
  unfold heads shapeCast transpose
  exact hY _

/-- A projection of a finite input, regrouped by head, is finite. -/
theorem fin_proj (x : SX.Idx → EReal) (W : SW.Idx → EReal) (b : SVec.Idx → EReal)
    (hx : ∀ i, Fin' (x i)) (hW : ∀ i, Fin' (W i)) (hb : ∀ i, Fin' (b i)) (j : SHeads.Idx) : Fin' (proj x W b j) := by
  unfold proj
  refine fin_heads _ (fun i => ?_) j
  unfold lin
  refine fin_linAt _ _ _ (fun i => ?_) (fun i => ?_) (fun i => ?_) _ _
  · unfold shapeCast; exact hx _
  · unfold weightT transpose; exact hW _
  · unfold biasRow shapeCast; exact hb _

/-- A score of finite queries and keys is finite. -/
theorem fin_score (Q K : SHeads.Idx → EReal) (hQ : ∀ i, Fin' (Q i)) (hK : ∀ i, Fin' (K i)) (h : Fin 64) (q k : Fin 2048) :
    Fin' (score Q K h q k) := by
  unfold score
  exact fin_mul (fin_sum_univ _ fun d => fin_mul (hQ _) (hK _)) (fin_of_eq_coe ofBits_eighth)

end Cert.Mha

end
-- ==== Proof.RefAttn.lean ====
/-
  The reference's attention, read at an index, is the specification's.

  Fix a batch `n`, a head `h` and a query row `q`, and write `s k` for the reference's scaled score against key
  row `k`. The reference divides the inner product by the square root of 64, which is multiplying it by 1/8. Its
  row maximum is the maximum of the `s k` folded from minus infinity, and one more maximum with minus infinity does
  not change it; call it `M`. Its weights are `exp (s k − M)`, its normalizer is zero plus their sum, and its
  attended row is `∑ k, (exp (s k − M) / normalizer) · V k`. With every input finite the scores, the maximum and the
  values are finite, and the normalizing division can be taken once, after the weighted sum: that is the
  specification's attended row.
-/
import proofs.«100730_j73830487818494_2_alg».proof.Proof.RefLin
import proofs.«100730_j73830487818494_2_alg».proof.Proof.AttnLaw

noncomputable section

namespace Cert.ReferenceIdeal.RefValue

open Idealize.ShloMosaic Idealize.ShloMosaic.ValueIdx Cert.ReferenceIdeal Cert.ReferenceIdeal.Gen
  Cert.ReferenceIdeal.Read Cert.Mha Cert.Lib.Finite

section
variable (x0 : SX.Idx → EReal) (x1 : SW.Idx → EReal) (x2 : SVec.Idx → EReal) (x3 : SW.Idx → EReal)
  (x4 : SVec.Idx → EReal) (x5 : SW.Idx → EReal) (x6 : SVec.Idx → EReal)

/-! ### The scores -/

/-- The inner product of query row `q` with key row `k` in batch `n`, head `h`. -/
theorem v18_ix (n : Fin 4) (h : Fin 16) (q k : Fin 2048) :
    val_main_v18 (F := Ideal) x0 x1 x2 x3 x4 (ix4 n h q k)
      = ∑ d : Fin 64, val_main_v5 (F := Ideal) x0 x1 x2 (ix4 n h q d) * val_main_v5 (F := Ideal) x0 x3 x4 (ix4 n h k d) := by
  rw [val_main_v18_apply, v11_eq]
  refine Finset.sum_congr rfl fun d _ => ?_
  refine congrArg₂ (· * ·) (congrArg _ (funext fun a => ?_)) (congrArg _ (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-- The scaled score: the inner product divided by the square root of 64 is the inner product times 1/8. -/
theorem v21_ix (n : Fin 4) (h : Fin 16) (q k : Fin 2048) :
    val_main_v21 (F := Ideal) x0 x1 x2 x3 x4 (ix4 n h q k)
      = (∑ d : Fin 64, val_main_v5 (F := Ideal) x0 x1 x2 (ix4 n h q d) * val_main_v5 (F := Ideal) x0 x3 x4 (ix4 n h k d))
          * Ideal.ofBits .f32 0x3E000000#32 := by
  rw [val_main_v21_apply, val_main_v20_apply, val_main_v19_apply, val_main_cst_apply, Ideal.hostDivf_def,
    Ideal.hostUnary_sqrt_def, Ideal.ofBits_def, v18_ix, scale_eq_div]

/-- The reference's scaled score is the specification's score of the regrouped projections. -/
theorem score_eq (g : Fin 64) (q k : Fin 2048) :
    score (proj x0 x1 x2) (proj x0 x3 x4) g q k
      = val_main_v21 (F := Ideal) x0 x1 x2 x3 x4
          (ix4 (⟨g.val / 16, by have := g.isLt; omega⟩ : Fin 4) (⟨g.val % 16, by omega⟩ : Fin 16) q k) := by
  rw [v21_ix]
  unfold score
  rw [proj_eq, proj_eq]
  refine congrArg (· * _) (Finset.sum_congr rfl fun d _ => ?_)
  rw [heads_apply, heads_apply]

/-! ### The row maximum -/

/-- The reference's row maximum, after its extra maximum with minus infinity, is the maximum of the row's scores. -/
theorem v24_ix (n : Fin 4) (h : Fin 16) (q : Fin 2048) (s : Fin 2048 → EReal)
    (hs : ∀ k, val_main_v21 (F := Ideal) x0 x1 x2 x3 x4 (ix4 n h q k) = s k) :
    val_main_v24 (F := Ideal) x0 x1 x2 x3 x4 (ix3 n h q) = rowMax s := by
  rw [val_main_v24_apply, val_main_v23_apply, val_main_cst_1_apply, Ideal.maximumf_def, Ideal.ofBits_def]
  have h22 : val_main_v22 (F := Ideal) x0 x1 x2 x3 x4 (ix3 n h q) = rowMax s := by
    unfold val_main_v22
    rw [Host.reduce_eq_fold_single FloatOps.maximumf _ _ reducesTo_S4x16x2048x2048_S4x16x2048_d3
      (by decide : Shape.Reduces S4x16x2048x2048 [3] S4x16x2048) h_S_,
      val_main_cst_0_apply, Ideal.ofBits_def]
    unfold rowMax
    refine congrArg (fun f : Fin 2048 → EReal => Finset.univ.fold max (Ideal.ofBits .f32 0xFF800000#32) f)
      (funext fun k => ?_)
    refine (congrArg (val_main_v21 (F := Ideal) x0 x1 x2 x3 x4) (funext fun a => Fin.ext ?_)).trans (hs k)
    match a with
    | ⟨0, _⟩ => rfl
    | ⟨1, _⟩ => rfl
    | ⟨2, _⟩ => rfl
    | ⟨3, _⟩ => rfl
  rw [h22, max_rowMax]

/-! ### The weights, the normalizer and the attended row -/

/-- A weight: the exponential of the score less the row maximum. -/
theorem v28_ix (n : Fin 4) (h : Fin 16) (q k : Fin 2048) (s : Fin 2048 → EReal)
    (hs : ∀ k, val_main_v21 (F := Ideal) x0 x1 x2 x3 x4 (ix4 n h q k) = s k) :
    val_main_v28 (F := Ideal) x0 x1 x2 x3 x4 (ix4 n h q k) = Ideal.exp (s k - rowMax s) := by
  have e : idx_main_v25 (idx_main_v26 (ix4 n h q k)) = ix3 n h q := funext fun a => by
    match a with
    | ⟨0, _⟩ => rfl
    | ⟨1, _⟩ => rfl
    | ⟨2, _⟩ => rfl
  rw [val_main_v28_apply, val_main_v27_apply, val_main_v26_apply, val_main_v25_apply, e,
    v24_ix x0 x1 x2 x3 x4 n h q s hs, hs, Ideal.hostUnary_exp_def, Ideal.subf_def]

/-- The normalizer: zero plus the sum of the row's weights. -/
theorem v29_ix (n : Fin 4) (h : Fin 16) (q : Fin 2048) (s : Fin 2048 → EReal)
    (hs : ∀ k, val_main_v21 (F := Ideal) x0 x1 x2 x3 x4 (ix4 n h q k) = s k) :
    val_main_v29 (F := Ideal) x0 x1 x2 x3 x4 (ix3 n h q)
      = Ideal.ofBits .f32 0x00000000#32 + ∑ j : Fin 2048, Ideal.exp (s j - rowMax s) := by
  rw [val_main_v29_apply, val_main_cst_2_apply, Ideal.ofBits_def]
  refine congrArg (_ + ·) (Finset.sum_congr rfl fun j _ => ?_)
  have e : idx_main_v29 (ix3 n h q) j = ix4 n h q j := funext fun a => by
    match a with
    | ⟨0, _⟩ => rfl
    | ⟨1, _⟩ => rfl
    | ⟨2, _⟩ => rfl
    | ⟨3, _⟩ => rfl
  rw [e, v28_ix x0 x1 x2 x3 x4 n h q j s hs]

/-- A normalized weight. -/
theorem v32_ix (n : Fin 4) (h : Fin 16) (q k : Fin 2048) (s : Fin 2048 → EReal)
    (hs : ∀ k, val_main_v21 (F := Ideal) x0 x1 x2 x3 x4 (ix4 n h q k) = s k) :
    val_main_v32 (F := Ideal) x0 x1 x2 x3 x4 (ix4 n h q k)
      = Ideal.div (Ideal.exp (s k - rowMax s))
          (Ideal.ofBits .f32 0x00000000#32 + ∑ j : Fin 2048, Ideal.exp (s j - rowMax s)) := by
  have e : idx_main_v30 (idx_main_v31 (ix4 n h q k)) = ix3 n h q := funext fun a => by
    match a with
    | ⟨0, _⟩ => rfl
    | ⟨1, _⟩ => rfl
    | ⟨2, _⟩ => rfl
  rw [val_main_v32_apply, val_main_v31_apply, val_main_v30_apply, e, v29_ix x0 x1 x2 x3 x4 n h q s hs,
    v28_ix x0 x1 x2 x3 x4 n h q k s hs, Ideal.hostDivf_def]

/-- The reference's attended row: the values weighted by the normalized weights. -/
theorem v33_ix (n : Fin 4) (h : Fin 16) (q : Fin 2048) (d : Fin 64) (s : Fin 2048 → EReal)
    (hs : ∀ k, val_main_v21 (F := Ideal) x0 x1 x2 x3 x4 (ix4 n h q k) = s k) :
    val_main_v33 (F := Ideal) x0 x1 x2 x3 x4 x5 x6 (ix4 n h q d)
      = ∑ k : Fin 2048, Ideal.div (Ideal.exp (s k - rowMax s))
          (Ideal.ofBits .f32 0x00000000#32 + ∑ j : Fin 2048, Ideal.exp (s j - rowMax s))
            * val_main_v5 (F := Ideal) x0 x5 x6 (ix4 n h k d) := by
  rw [val_main_v33_apply, v17_eq]
  refine Finset.sum_congr rfl fun k _ => ?_
  have el : lidx_main_v33 (ix4 n h q d) k = ix4 n h q k := funext fun a => by
    match a with
    | ⟨0, _⟩ => rfl
    | ⟨1, _⟩ => rfl
    | ⟨2, _⟩ => rfl
    | ⟨3, _⟩ => rfl
  have er : ridx_main_v33 (ix4 n h q d) k = ix4 n h k d := funext fun a => by
    match a with
    | ⟨0, _⟩ => rfl
    | ⟨1, _⟩ => rfl
    | ⟨2, _⟩ => rfl
    | ⟨3, _⟩ => rfl
  rw [el, er, v32_ix x0 x1 x2 x3 x4 n h q k s hs]

/-! ### The two arrangements agree on finite inputs -/

/-- With every input finite, the reference's attended rows, viewed by merged batch and head, are the specification's
    attention of the three regrouped projections. -/
theorem att_eq (h0 : ∀ i, Fin' (x0 i)) (h1 : ∀ i, Fin' (x1 i)) (h2 : ∀ i, Fin' (x2 i)) (h3 : ∀ i, Fin' (x3 i))
    (h4 : ∀ i, Fin' (x4 i)) (h5 : ∀ i, Fin' (x5 i)) (h6 : ∀ i, Fin' (x6 i)) :
    att (proj x0 x1 x2) (proj x0 x3 x4) (proj x0 x5 x6)
      = shapeCast SHeads (val_main_v33 (F := Ideal) x0 x1 x2 x3 x4 x5 x6) (by decide) := by
  funext j
  obtain ⟨g, q, d, rfl⟩ : ∃ g q d, j = ix3 g q d := ⟨j 0, j 1, j 2, eq_ix3 j⟩
  rw [heads_apply, v33_ix x0 x1 x2 x3 x4 x5 x6 _ _ q d (score (proj x0 x1 x2) (proj x0 x3 x4) g q)
    (fun k => (score_eq x0 x1 x2 x3 x4 g q k).symm)]
  show attAt _ _ _ g q d = _
  unfold attAt
  have hQ := fin_proj x0 x1 x2 h0 h1 h2
  have hK := fin_proj x0 x3 x4 h0 h3 h4
  have hV := fin_proj x0 x5 x6 h0 h5 h6
  have hsc : ∀ k, Fin' (score (proj x0 x1 x2) (proj x0 x3 x4) g q k) := fun k => fin_score _ _ hQ hK g q k
  refine (softmax_sum_exchange (score (proj x0 x1 x2) (proj x0 x3 x4) g q) (fun k => proj x0 x5 x6 (ix3 g k d)) _
    hsc (fin_rowMax _ hsc) (fun k => hV _)).symm.trans (Finset.sum_congr rfl fun k _ => ?_)
  refine congrArg (fun v : EReal => Ideal.div
    (Ideal.exp (score (proj x0 x1 x2) (proj x0 x3 x4) g q k - rowMax (score (proj x0 x1 x2) (proj x0 x3 x4) g q)))
    (Ideal.ofBits .f32 0x00000000#32 + ∑ j : Fin 2048,
      Ideal.exp (score (proj x0 x1 x2) (proj x0 x3 x4) g q j - rowMax (score (proj x0 x1 x2) (proj x0 x3 x4) g q))) * v) ?_
  rw [proj_eq, heads_apply]

end

end Cert.ReferenceIdeal.RefValue

end
-- ==== Proof.RefValue.lean ====
/-
  The reference program computes the specification.

  Its three projections, regrouped by head, are the specification's; its attention of them is the specification's on
  finite inputs; its regrouping back and its output projection are the specification's. Put together, the value the
  reference writes is `Cert.Mha.mha` of its nine arguments.
-/
import proofs.«100730_j73830487818494_2_alg».proof.Proof.RefAttn

noncomputable section

namespace Cert.ReferenceIdeal.RefValue

open Idealize.ShloMosaic Idealize.ShloMosaic.ValueIdx Cert.ReferenceIdeal Cert.ReferenceIdeal.Gen
  Cert.ReferenceIdeal.Read Cert.Mha Cert.Lib.Finite

/-- With every entry of the input, of the three projection weights and of their biases finite, the reference's result is
    multi-head self-attention as the specification defines it. -/
theorem val_eq_mha (x0 : (⟨S4x2048x1024, .f32⟩ : BufTy).Contents (Elt Ideal))
    (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal))
    (h0 : ∀ i, Cert.Lib.Finite.Fin' (x0 i)) (h1 : ∀ i, Cert.Lib.Finite.Fin' (x1 i))
    (h2 : ∀ i, Cert.Lib.Finite.Fin' (x2 i)) (h3 : ∀ i, Cert.Lib.Finite.Fin' (x3 i))
    (h4 : ∀ i, Cert.Lib.Finite.Fin' (x4 i)) (h5 : ∀ i, Cert.Lib.Finite.Fin' (x5 i))
    (h6 : ∀ i, Cert.Lib.Finite.Fin' (x6 i)) :
    Cert.ReferenceIdeal.Read.val_main_v39 (F := Ideal) x0 x1 x2 x3 x4 x5 x6 x7 x8
      = Cert.Mha.mha x0 x1 x2 x3 x4 x5 x6 x7 x8 := by
  unfold mha
  rw [att_eq x0 x1 x2 x3 x4 x5 x6 h0 h1 h2 h3 h4 h5 h6, unheads_cast, lin_cast _ _ (by decide)]
  rfl

end Cert.ReferenceIdeal.RefValue

end
-- ==== Proof.PreFinite.lean ====
/-
  From the precondition to finiteness of every input entry.

  The precondition is the conjunction, over the nine inputs, of "every entry has absolute value below plus infinity".
  On the extended reals the absolute value of `x` is `max x (-x)`, and `max x (-x) < ⊤` holds exactly when `x` is
  neither infinity. A conjunction of `i1` words is `1` exactly when every word is, and an `and`-reduction over all
  axes is `1` exactly when every entry is; so the precondition being `1` gives the finiteness of every entry of every
  input.
-/
import proofs.«100730_j73830487818494_2_alg».proof.Pre_finite_inputs
import proofs.«100730_j73830487818494_2_alg».proof.Proof.Gen.Pre_finite_inputs
import proofs.«100730_j73830487818494_2_alg».proof.Proof.LibERealFinite
import Idealize.ShloMosaic.Lib.ReduceAll
import Idealize.ShloMosaic.Lib.ValueIdx
import Idealize.ShloMosaic.PureOps.Ideal.Laws

noncomputable section

namespace Cert.Mha

open Idealize.ShloMosaic Cert.Lib.Finite

/-- The word `0x7F800000` is plus infinity. -/
theorem ofBits_posInf : Ideal.ofBits .f32 0x7F800000#32 = ⊤ := by
  simp [Ideal.ofBits, Ideal.ieee]

/-- An extended real whose absolute value `max x (-x)` is below plus infinity is finite. -/
theorem fin_of_abs_lt_top (x : EReal) (h : max x (-x) < ⊤) : Fin' x := by
  induction x using EReal.rec with
  | bot => simp at h
  | top => simp at h
  | coe r => exact fin_coe r

/-- If the `and` over all entries of the test "the absolute value of the entry is below `c`", where every entry of `c`
    is the word `0x7F800000`, is `1`, then every entry of `a` is finite. -/
theorem fin_of_all {s : Shape} {axes : List (Fin s.rank)} (a c : FVec Ideal s .f32)
    (hc : ∀ i, c i = Ideal.ofBits .f32 0x7F800000#32) (init : IVec Cert.Pre_finite_inputs.S_ 1)
    (hr : s.ReducesTo axes Cert.Pre_finite_inputs.S_) (hu : 0 < Cert.Pre_finite_inputs.S_.numel)
    (e : Host.reduce IntOp.andi (cmpf .olt (Host.absf a) c) init hr hu ValueIdx.ix0 = 1#1) (i : s.Idx) :
    Fin' (a i) := by
  haveI : Subsingleton Cert.Pre_finite_inputs.S_.Idx := ⟨fun a b => funext fun d => d.elim0⟩
  -- the test at the entry `i` is `1`
  have h1 : cmpf .olt (Host.absf a) c i = 1#1 := Host.reduce_andi_all _ init hr hu ValueIdx.ix0 e i
  -- at the extended reals the test is the order's comparison of `max (a i) (-(a i))` with plus infinity
  have h2 : Ideal.cmp .olt (max (a i) (-(a i))) (c i) = 1#1 := h1
  rw [hc i, ofBits_posInf] at h2
  refine fin_of_abs_lt_top (a i) ?_
  by_contra hn
  -- otherwise the comparison would be the word `0`
  have h3 : Ideal.cmp .olt (max (a i) (-(a i))) ⊤ = 0#1 := by
    show BitVec.ofBool (decide (max (a i) (-(a i)) < ⊤)) = 0#1
    rw [decide_eq_false hn]
    rfl
  rw [h3] at h2
  exact absurd h2 (by decide)

open Cert.Pre_finite_inputs in
/-- The precondition gives the finiteness of every entry of every input. -/
theorem finite_of_pre [Cert.Pre_finite_inputs.Facts]
    (a0 : FVec Ideal Cert.Pre_finite_inputs.S4x2048x1024 .f32)
    (a1 : FVec Ideal Cert.Pre_finite_inputs.S1024x1024 .f32) (a2 : FVec Ideal Cert.Pre_finite_inputs.S1024 .f32)
    (a3 : FVec Ideal Cert.Pre_finite_inputs.S1024x1024 .f32) (a4 : FVec Ideal Cert.Pre_finite_inputs.S1024 .f32)
    (a5 : FVec Ideal Cert.Pre_finite_inputs.S1024x1024 .f32) (a6 : FVec Ideal Cert.Pre_finite_inputs.S1024 .f32)
    (a7 : FVec Ideal Cert.Pre_finite_inputs.S1024x1024 .f32) (a8 : FVec Ideal Cert.Pre_finite_inputs.S1024 .f32)
    (h : Cert.Pre_finite_inputs.fn (F := Ideal) a0 a1 a2 a3 a4 a5 a6 a7 a8 = fun _ => 1#1) :
    (∀ i, Fin' (a0 i)) ∧ (∀ i, Fin' (a1 i)) ∧ (∀ i, Fin' (a2 i)) ∧ (∀ i, Fin' (a3 i)) ∧ (∀ i, Fin' (a4 i)) ∧
      (∀ i, Fin' (a5 i)) ∧ (∀ i, Fin' (a6 i)) ∧ (∀ i, Fin' (a7 i)) ∧ (∀ i, Fin' (a8 i)) := by
  have h0 := congrFun h ValueIdx.ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨e0, e1⟩, e2⟩, e3⟩, e4⟩, e5⟩, e6⟩, e7⟩, e8⟩ := h0
  exact ⟨fin_of_all a0 _ (fun _ => rfl) _ _ _ e0, fin_of_all a1 _ (fun _ => rfl) _ _ _ e1,
    fin_of_all a2 _ (fun _ => rfl) _ _ _ e2, fin_of_all a3 _ (fun _ => rfl) _ _ _ e3,
    fin_of_all a4 _ (fun _ => rfl) _ _ _ e4, fin_of_all a5 _ (fun _ => rfl) _ _ _ e5,
    fin_of_all a6 _ (fun _ => rfl) _ _ _ e6, fin_of_all a7 _ (fun _ => rfl) _ _ _ e7,
    fin_of_all a8 _ (fun _ => rfl) _ _ _ e8⟩

end Cert.Mha

end
-- ==== Proof.lean ====
/-
  The five claims of this certificate.

  The kernel program computes multi-head self-attention in three kernels — the projections of queries, keys and values;
  the attention of each of the 64 (batch, head) pairs; the output projection — with host regroupings between them; the
  reference computes it with whole-array operations. At the extended reals both results are ONE function of the nine
  arguments (`Cert.Mha.mha`):

  * the kernel side, because each kernel's blocks tile its result array and each block holds the block of the
    whole-array function (three modules, one per kernel), and the host stretches between them are the regroupings the
    specification names;
  * the reference side, index by index, where the only mathematics is that it normalizes the softmax weights BEFORE the
    weighted sum and divides the scores by the square root of 64, while the kernel divides ONCE after the sum and
    multiplies by 1/8: equal because every input entry is finite (the precondition), so scores, their maximum, the
    weights and the normalizer are real numbers and the normalizer is positive.

  The frames are the generated ones (the reference's is its generated run with the result dropped), and the idealization
  rewrote nothing, so there is nothing to preserve.
-/
import proofs.«100730_j73830487818494_2_alg».proof.Defs
import proofs.«100730_j73830487818494_2_alg».proof.Proof.Gen.Kernel
import proofs.«100730_j73830487818494_2_alg».proof.Proof.Gen.Kernel.Skeleton
import proofs.«100730_j73830487818494_2_alg».proof.Proof.Gen.Kernel.Launch
import proofs.«100730_j73830487818494_2_alg».proof.Proof.Gen.Kernel.Points
import proofs.«100730_j73830487818494_2_alg».proof.Proof.Gen.Kernel.Frame
import proofs.«100730_j73830487818494_2_alg».proof.Proof.Gen.KernelIdeal
import proofs.«100730_j73830487818494_2_alg».proof.Proof.Gen.KernelIdeal.Skeleton
import proofs.«100730_j73830487818494_2_alg».proof.Proof.Gen.KernelIdeal.Launch
import proofs.«100730_j73830487818494_2_alg».proof.Proof.Gen.KernelIdeal.Points
import proofs.«100730_j73830487818494_2_alg».proof.Proof.Gen.KernelIdeal.Frame
import proofs.«100730_j73830487818494_2_alg».proof.Proof.Gen.ReferenceIdeal
import proofs.«100730_j73830487818494_2_alg».proof.Proof.Gen.ReferenceIdeal.Run
import proofs.«100730_j73830487818494_2_alg».proof.Proof.Gen.ReferenceIdeal.Read
import proofs.«100730_j73830487818494_2_alg».proof.Proof.Gen.Pre_finite_inputs
import proofs.«100730_j73830487818494_2_alg».proof.Proof.KernelRun
import proofs.«100730_j73830487818494_2_alg».proof.Proof.KernelValue
import proofs.«100730_j73830487818494_2_alg».proof.Proof.RefValue
import proofs.«100730_j73830487818494_2_alg».proof.Proof.PreFinite
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the nine arguments, all finite, both programs end with multi-head attention of the
    arguments in their result buffers. -/
theorem algebraic : Cert.algebraic_KernelIdeal_ReferenceIdeal := by
  intro m ρ m' ρ' hpre hagree
  refine ⟨fun c => Cert.Mha.mha (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Hand.result_value m ρ c), (h c).2⟩)
      (Cert.KernelIdeal.Hand.run_result m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8⟩ := hagree c
    obtain ⟨f0, f1, f2, f3, f4, f5, f6, -, -⟩ := Cert.Mha.finite_of_pre _ _ _ _ _ _ _ _ _ (hpre c)
    rw [Cert.ReferenceIdeal.Read.val_main_v39_eq, a0, a1, a2, a3, a4, a5, a6, a7, a8]
    exact Cert.ReferenceIdeal.RefValue.val_eq_mha _ _ _ _ _ _ _ _ _ f0 f1 f2 f3 f4 f5 f6

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
